-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S50000x128 .f32) (main_arg2 : FVec F S50000x128 .f32) (main_arg3 : FVec F S50000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : IVec S800000 32) (main_arg13 : IVec S800000 32) (main_arg14 : IVec S800000 32) (main_arg15 : IVec S800000 32) (main_arg16 : IVec S800000 32) (main_arg17 : IVec S800000 32) (main_arg18 : IVec S800000 32) (main_arg19 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S4x50000x128 : Shape := ⟨3, ![4, 50000, 128]⟩
abbrev S2000x128 : Shape := ⟨2, ![2000, 128]⟩
abbrev S2000x1 : Shape := ⟨2, ![2000, 1]⟩
abbrev S4x2000x128 : Shape := ⟨3, ![4, 2000, 128]⟩
abbrev S1x2000x128 : Shape := ⟨3, ![1, 2000, 128]⟩

abbrev nBuf : Space → Nat
  | .hbm => 181
  | .vmem => 26
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S800000, .i32⟩
  | 13 => ⟨S800000, .i32⟩
  | 14 => ⟨S800000, .i32⟩
  | 15 => ⟨S800000, .i32⟩
  | 16 => ⟨S800000, .i32⟩
  | 17 => ⟨S800000, .i32⟩
  | 18 => ⟨S800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .bf16⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .bf16⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S50000x128, .bf16⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .bf16⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000, .f32⟩
  | 97 => ⟨S50000x1, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S_, .f32⟩
  | 106 => ⟨S50000, .f32⟩
  | 107 => ⟨S50000, .f32⟩
  | 108 => ⟨S_, .f32⟩
  | 109 => ⟨S50000, .f32⟩
  | 110 => ⟨S800000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S50000x128, .bf16⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .bf16⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000, .f32⟩
  | 8 => ⟨S50000x1, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S50000x128, .bf16⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .bf16⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000, .f32⟩
  | 47 => ⟨S50000x1, .f32⟩
  | 48 => ⟨S1x128, .f32⟩
  | 49 => ⟨S1x128, .f32⟩
  | 50 => ⟨S1x128, .f32⟩
  | 51 => ⟨S1x128, .f32⟩
  | 52 => ⟨S4x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S4x2000x128, .f32⟩
  | .local _ .vmem, ⟨25, _⟩ => ⟨S4x2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_cst_7 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_8 : Ref sig .tc := ⟨.hbm, 65, rfl⟩
abbrev main_call2_v0 : Ref sig .tc := ⟨.hbm, 66, rfl⟩
abbrev main_call2_v1 : Ref sig .tc := ⟨.hbm, 67, rfl⟩
abbrev main_v31 : Ref sig .tc := ⟨.hbm, 68, rfl⟩
abbrev main_cst_9 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_call3_v0 : Ref sig .tc := ⟨.hbm, 74, rfl⟩
abbrev main_call3_v1 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_11 : Ref sig .tc := ⟨.hbm, 82, rfl⟩
abbrev main_v41 : Ref sig .tc := ⟨.hbm, 83, rfl⟩
abbrev main_v42 : Ref sig .tc := ⟨.hbm, 84, rfl⟩
abbrev main_c_12 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_13 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_14 : Ref sig .tc := ⟨.hbm, 98, rfl⟩
abbrev main_v54 : Ref sig .tc := ⟨.hbm, 99, rfl⟩
abbrev main_cst_15 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_16 : Ref sig .tc := ⟨.hbm, 104, rfl⟩
abbrev main_call4_v0 : Ref sig .tc := ⟨.hbm, 105, rfl⟩
abbrev main_call4_v1 : Ref sig .tc := ⟨.hbm, 106, rfl⟩
abbrev main_v58 : Ref sig .tc := ⟨.hbm, 107, rfl⟩
abbrev main_cst_17 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_18 : Ref sig .tc := ⟨.hbm, 112, rfl⟩
abbrev main_call5_v0 : Ref sig .tc := ⟨.hbm, 113, rfl⟩
abbrev main_call5_v1 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_19 : Ref sig .tc := ⟨.hbm, 121, rfl⟩
abbrev main_v68 : Ref sig .tc := ⟨.hbm, 122, rfl⟩
abbrev main_v69 : Ref sig .tc := ⟨.hbm, 123, rfl⟩
abbrev main_c_20 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_21 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_22 : Ref sig .tc := ⟨.hbm, 137, rfl⟩
abbrev main_v81 : Ref sig .tc := ⟨.hbm, 138, rfl⟩
abbrev main_cst_23 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_24 : Ref sig .tc := ⟨.hbm, 143, rfl⟩
abbrev main_call6_v0 : Ref sig .tc := ⟨.hbm, 144, rfl⟩
abbrev main_call6_v1 : Ref sig .tc := ⟨.hbm, 145, rfl⟩
abbrev main_v85 : Ref sig .tc := ⟨.hbm, 146, rfl⟩
abbrev main_cst_25 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_26 : Ref sig .tc := ⟨.hbm, 151, rfl⟩
abbrev main_call7_v0 : Ref sig .tc := ⟨.hbm, 152, rfl⟩
abbrev main_call7_v1 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_c_27 : Ref sig .tc := ⟨.hbm, 160, rfl⟩
abbrev main_v95 : Ref sig .tc := ⟨.hbm, 161, rfl⟩
abbrev main_v96 : Ref sig .tc := ⟨.hbm, 162, rfl⟩
abbrev main_c_28 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_29 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S4x2000x128_S1x2000x128_1_0_0 : ∀ a, (![1, 0, 0] : Fin 3 → Nat) a + S1x2000x128.size a ≤ S4x2000x128.size a
  inb_S4x2000x128_S1x2000x128_2_0_0 : ∀ a, (![2, 0, 0] : Fin 3 → Nat) a + S1x2000x128.size a ≤ S4x2000x128.size a
  inb_S4x2000x128_S1x2000x128_3_0_0 : ∀ a, (![3, 0, 0] : Fin 3 → Nat) a + S1x2000x128.size a ≤ S4x2000x128.size a
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S50000x1.size a
  hwx0_7 : ∀ i : grid0.Coords, EltTy.bits .f32 = 32 ∨ (Rect.block (s := S50000x1) S2000x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4x2000x128.size a ≤ S4x50000x128.size a
  hwx0_16 : ∀ i : grid0.Coords, EltTy.bits .f32 = 32 ∨ (Rect.block (s := S4x50000x128) S4x2000x128.size (cc0_transform_16 i) (hinb0_16 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v105) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v80) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v107) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v108) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v109) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v110) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v111) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v112) S4x2000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x50000x128 : Shape := ⟨3, ![1, 50000, 128]⟩
abbrev S4x50000x128 : Shape := ⟨3, ![4, 50000, 128]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S800000, .i32⟩
  | 13 => ⟨S800000, .i32⟩
  | 14 => ⟨S800000, .i32⟩
  | 15 => ⟨S800000, .i32⟩
  | 16 => ⟨S800000, .i32⟩
  | 17 => ⟨S800000, .i32⟩
  | 18 => ⟨S800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S_, .f32⟩
  | 79 => ⟨S50000, .f32⟩
  | 80 => ⟨S50000, .f32⟩
  | 81 => ⟨S50000, .f32⟩
  | 82 => ⟨S50000x1, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S_, .f32⟩
  | 115 => ⟨S50000, .f32⟩
  | 116 => ⟨S50000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S50000, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000, .f32⟩
  | 15 => ⟨S50000x1, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S_, .f32⟩
  | 38 => ⟨S50000, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x50000x128, .f32⟩
  | 66 => ⟨S1x50000x128, .f32⟩
  | 67 => ⟨S1x50000x128, .f32⟩
  | 68 => ⟨S1x50000x128, .f32⟩
  | 69 => ⟨S4x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_call2_v0 : Ref sig .tc := ⟨.hbm, 70, rfl⟩
abbrev main_call2_v1 : Ref sig .tc := ⟨.hbm, 71, rfl⟩
abbrev main_v35 : Ref sig .tc := ⟨.hbm, 72, rfl⟩
abbrev main_cst_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_11 : Ref sig .tc := ⟨.hbm, 85, rfl⟩
abbrev main_v44 : Ref sig .tc := ⟨.hbm, 86, rfl⟩
abbrev main_v45 : Ref sig .tc := ⟨.hbm, 87, rfl⟩
abbrev main_c_12 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_13 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_14 : Ref sig .tc := ⟨.hbm, 107, rfl⟩
abbrev main_v63 : Ref sig .tc := ⟨.hbm, 108, rfl⟩
abbrev main_cst_15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_16 : Ref sig .tc := ⟨.hbm, 113, rfl⟩
abbrev main_call4_v0 : Ref sig .tc := ⟨.hbm, 114, rfl⟩
abbrev main_call4_v1 : Ref sig .tc := ⟨.hbm, 115, rfl⟩
abbrev main_v67 : Ref sig .tc := ⟨.hbm, 116, rfl⟩
abbrev main_cst_17 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_18 : Ref sig .tc := ⟨.hbm, 121, rfl⟩
abbrev main_call5_v0 : Ref sig .tc := ⟨.hbm, 122, rfl⟩
abbrev main_call5_v1 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_19 : Ref sig .tc := ⟨.hbm, 129, rfl⟩
abbrev main_v76 : Ref sig .tc := ⟨.hbm, 130, rfl⟩
abbrev main_v77 : Ref sig .tc := ⟨.hbm, 131, rfl⟩
abbrev main_c_20 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_21 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_22 : Ref sig .tc := ⟨.hbm, 150, rfl⟩
abbrev main_v94 : Ref sig .tc := ⟨.hbm, 151, rfl⟩
abbrev main_cst_23 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_24 : Ref sig .tc := ⟨.hbm, 156, rfl⟩
abbrev main_call6_v0 : Ref sig .tc := ⟨.hbm, 157, rfl⟩
abbrev main_call6_v1 : Ref sig .tc := ⟨.hbm, 158, rfl⟩
abbrev main_v98 : Ref sig .tc := ⟨.hbm, 159, rfl⟩
abbrev main_cst_25 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_26 : Ref sig .tc := ⟨.hbm, 164, rfl⟩
abbrev main_call7_v0 : Ref sig .tc := ⟨.hbm, 165, rfl⟩
abbrev main_call7_v1 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_c_27 : Ref sig .tc := ⟨.hbm, 172, rfl⟩
abbrev main_v107 : Ref sig .tc := ⟨.hbm, 173, rfl⟩
abbrev main_v108 : Ref sig .tc := ⟨.hbm, 174, rfl⟩
abbrev main_c_28 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_29 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The common value of the two programs, as one function of arrays.

  For one relation, with `A` the aggregated messages (one row per node), `C` the column of
  destination-degree weights, `W` the weight matrix and `R` the bias as a row, node `n` and
  feature `d` receive
      (∑ k, (A[n,k] · C[n,0]) · W[k,d]) + R[0,d].
  The result stacks four node-by-feature slabs: slabs 0 and 1 are both the sum of the first two
  relations' updates, slab 2 is the third relation's, slab 3 the fourth's.  Everything is on the
  extended reals; no law beyond the definitions is used, so nothing here needs finiteness.
-/
import Idealize.ShloMosaic.PureOps.Ideal
import Idealize.ShloMosaic.Lib.ValueIdx

noncomputable section

namespace Cert.GraphStack

open Idealize.ShloMosaic Idealize.ShloMosaic.ValueIdx

/-- One relation's update at node `n`, feature `d`: the row of `A` scaled by the node's weight,
    times the matrix, plus the bias. -/
def conv (A : (⟨2, ![50000, 128]⟩ : Shape).Idx → EReal) (C : (⟨2, ![50000, 1]⟩ : Shape).Idx → EReal)
    (W : (⟨2, ![128, 128]⟩ : Shape).Idx → EReal) (R : (⟨2, ![1, 128]⟩ : Shape).Idx → EReal)
    (n : Fin 50000) (d : Fin 128) : EReal :=
  (∑ k : Fin 128, (A (ix2 n k) * C (ix2 n (0 : Fin 1))) * W (ix2 k d)) + R (ix2 (0 : Fin 1) d)

/-- The stacked result: slabs 0 and 1 hold the sum of relations 0 and 1, slab 2 relation 2,
    slab 3 relation 3. -/
def stack (A0 A1 A2 A3 : (⟨2, ![50000, 128]⟩ : Shape).Idx → EReal)
    (C0 C1 C2 C3 : (⟨2, ![50000, 1]⟩ : Shape).Idx → EReal)
    (W0 W1 W2 W3 : (⟨2, ![128, 128]⟩ : Shape).Idx → EReal)
    (R0 R1 R2 R3 : (⟨2, ![1, 128]⟩ : Shape).Idx → EReal) :
    (⟨3, ![4, 50000, 128]⟩ : Shape).Idx → EReal := fun i =>
  if (i 0).val < 2 then conv A0 C0 W0 R0 (i 1) (i 2) + conv A1 C1 W1 R1 (i 1) (i 2)
  else if (i 0).val = 2 then conv A2 C2 W2 R2 (i 1) (i 2)
  else conv A3 C3 W3 R3 (i 1) (i 2)

theorem stack_ix3 (A0 A1 A2 A3 : (⟨2, ![50000, 128]⟩ : Shape).Idx → EReal)
    (C0 C1 C2 C3 : (⟨2, ![50000, 1]⟩ : Shape).Idx → EReal)
    (W0 W1 W2 W3 : (⟨2, ![128, 128]⟩ : Shape).Idx → EReal)
    (R0 R1 R2 R3 : (⟨2, ![1, 128]⟩ : Shape).Idx → EReal) (s : Fin 4) (n : Fin 50000) (d : Fin 128) :
    stack A0 A1 A2 A3 C0 C1 C2 C3 W0 W1 W2 W3 R0 R1 R2 R3 (ix3 s n d) =
      if s.val < 2 then conv A0 C0 W0 R0 n d + conv A1 C1 W1 R1 n d
      else if s.val = 2 then conv A2 C2 W2 R2 n d
      else conv A3 C3 W3 R3 n d := rfl

/-! ## The same on one block of 2000 nodes

A block of 2000 consecutive nodes sees the same formula with the block's own rows of `A` and `C`
and the whole of `W` and `R`. -/

/-- One relation's update on a block of 2000 rows. -/
def bconv (X : (⟨2, ![2000, 128]⟩ : Shape).Idx → EReal) (C : (⟨2, ![2000, 1]⟩ : Shape).Idx → EReal)
    (W : (⟨2, ![128, 128]⟩ : Shape).Idx → EReal) (R : (⟨2, ![1, 128]⟩ : Shape).Idx → EReal)
    (p : Fin 2000) (d : Fin 128) : EReal :=
  (∑ k : Fin 128, (X (ix2 p k) * C (ix2 p (0 : Fin 1))) * W (ix2 k d)) + R (ix2 (0 : Fin 1) d)

/-- The four slabs of one block. -/
def bstack (X0 X1 X2 X3 : (⟨2, ![2000, 128]⟩ : Shape).Idx → EReal)
    (C0 C1 C2 C3 : (⟨2, ![2000, 1]⟩ : Shape).Idx → EReal)
    (W0 W1 W2 W3 : (⟨2, ![128, 128]⟩ : Shape).Idx → EReal)
    (R0 R1 R2 R3 : (⟨2, ![1, 128]⟩ : Shape).Idx → EReal) :
    (⟨3, ![4, 2000, 128]⟩ : Shape).Idx → EReal := fun j =>
  if (j 0).val < 2 then bconv X0 C0 W0 R0 (j 1) (j 2) + bconv X1 C1 W1 R1 (j 1) (j 2)
  else if (j 0).val = 2 then bconv X2 C2 W2 R2 (j 1) (j 2)
  else bconv X3 C3 W3 R3 (j 1) (j 2)

end Cert.GraphStack

end
-- ==== Proof.Payload.lean ====
/-
  What the kernel body computes on one block, read entry by entry.

  Each of the four relations contributes, for row `p` of the block and feature `d`,
      (∑ k, (X[p,k] · C[p,0]) · W[k,d]) + R[0,d]:
  the column `C` is spread over the 128 lanes, the product with `W` is a matrix product into a
  zero accumulator (a plain sum over `k` on the extended reals), the row `R` is spread over the
  2000 rows, and the narrowing of the operands to a shorter float format changes nothing here.
  The first two relations' results are added, and the three results are laid as four slabs.
-/
import proofs.«159375_j48275432407743_2_alg».proof.Proof.Gen.KernelIdeal.Skeleton
import proofs.«159375_j48275432407743_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.GraphStack

/-- A column `[2000,1]` spread over 128 lanes reads, at `(p, k)`, the column's entry of row `p`. -/
theorem column_spread_apply (v : (⟨2, ![2000, 1]⟩ : Shape).Idx → EReal)
    (h : (⟨2, ![2000, 1]⟩ : Shape).Broadcasts ⟨2, ![2000, 128]⟩) (p : Fin 2000) (k : Fin 128) :
    broadcastTo ⟨2, ![2000, 128]⟩ v h (ix2 p k) = v (ix2 p (0 : Fin 1)) := by
  refine broadcastTo_apply v h (ix2 p k) (ix2 p (0 : Fin 1)) fun ax => ?_
  match ax with
  | ⟨0, _⟩ =>
    show p.val = if (2000 : Nat) = 1 then 0 else p.val
    rw [if_neg (by decide)]
  | ⟨1, _⟩ =>
    show (0 : Nat) = if (1 : Nat) = 1 then 0 else k.val
    rw [if_pos rfl]

/-- The row coordinate of the left operand's index is the result's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The column coordinate of the right operand's index is the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product into a zero accumulator, at `(p, d)`, is the sum over `k` of the left
    operand's `(p, k)` times the right operand's `(k, d)`. -/
theorem product_apply {φ₁ φ₂ : FTy} (L : FVec Ideal S2000x128 φ₁) (M : FVec Ideal S128x128 φ₂) (p : Fin 2000) (d : Fin 128) :
    matmul dot_S2000x128_S128x128_S2000x128_1_0_0_1_n_n none L M (constant S2000x128 .f32 0x00000000#32) (ix2 p d)
      = ∑ k : Fin 128, L (ix2 p k) * M (ix2 k d) := by
  show FloatOps.matmul dot_S2000x128_S128x128_S2000x128_1_0_0_1_n_n none L M (constant S2000x128 .f32 0x00000000#32) (ix2 p d) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p d)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p d)
      ((contrEquiv1 dot_S2000x128_S128x128_S2000x128_1_0_0_1_n_n 128 rfl rfl).symm k) = ix2 k d :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- One relation's result on the block, entry by entry. -/
theorem relation_apply (X : FVec Ideal S2000x128 .f32) (C : FVec Ideal S2000x1 .f32) (W : FVec Ideal S128x128 .f32)
    (R : FVec Ideal S1x128 .f32) (p : Fin 2000) (d : Fin 128) :
    (addf (matmul dot_S2000x128_S128x128_S2000x128_1_0_0_1_n_n none
        (truncf .bf16 (mulf (shapeCast S2000x128 X shapeCasts_S2000x128_S2000x128)
          (broadcastTo S2000x128 (shapeCast S2000x1 C shapeCasts_S2000x1_S2000x1) broadcasts_S2000x1_S2000x128)) bitsLt_bf16_f32)
        (truncf .bf16 W bitsLt_bf16_f32) (constant S2000x128 .f32 0x00000000#32))
      (broadcastTo S2000x128 (shapeCast S1x128 R shapeCasts_S1x128_S1x128) broadcasts_S1x128_S2000x128)
      : FVec Ideal S2000x128 .f32) (ix2 p d) = bconv X C W R p d := by
  rw [addf_apply, product_apply, broadcastTo_1b_ab_apply]
  unfold bconv
  simp only [shapeCast_self, truncf_apply, mulf_apply, column_spread_apply]

theorem pay2_apply (v0 : FVec Ideal S2000x128 .f32) (v2 : FVec Ideal S2000x1 .f32) (v7 : FVec Ideal S128x128 .f32)
    (v10 : FVec Ideal S1x128 .f32) (p : Fin 2000) (d : Fin 128) :
    k0_pay2 (F := Ideal) v0 v2 v7 v10 (ix2 p d) = bconv v0 v2 v7 v10 p d :=
  relation_apply v0 v2 v7 v10 p d

theorem pay3_apply (v14 : FVec Ideal S2000x128 .f32) (v16 : FVec Ideal S2000x1 .f32) (v21 : FVec Ideal S128x128 .f32)
    (v24 : FVec Ideal S1x128 .f32) (p : Fin 2000) (d : Fin 128) :
    k0_pay3 (F := Ideal) v14 v16 v21 v24 (ix2 p d) = bconv v14 v16 v21 v24 p d :=
  relation_apply v14 v16 v21 v24 p d

theorem pay5_apply (v42 : FVec Ideal S2000x128 .f32) (v44 : FVec Ideal S2000x1 .f32) (v49 : FVec Ideal S128x128 .f32)
    (v52 : FVec Ideal S1x128 .f32) (p : Fin 2000) (d : Fin 128) :
    k0_pay5 (F := Ideal) v42 v44 v49 v52 (ix2 p d) = bconv v42 v44 v49 v52 p d :=
  relation_apply v42 v44 v49 v52 p d

/-- Slab 2's payload: the third relation's result laid as a `[1,2000,128]` slab. -/
theorem pay9_apply (v28 : FVec Ideal S2000x128 .f32) (v30 : FVec Ideal S2000x1 .f32) (v35 : FVec Ideal S128x128 .f32)
    (v38 : FVec Ideal S1x128 .f32) (u : Fin 1) (p : Fin 2000) (d : Fin 128) :
    k0_pay9 (F := Ideal) (k0_pay4 (F := Ideal) v28 v30) v35 v38 (ix3 u p d) = bconv v28 v30 v35 v38 p d := by
  unfold k0_pay9 k0_pay4
  refine (shapeCast_ab_1ab_apply _ shapeCasts_S2000x128_S1x2000x128 u p d).trans ?_
  exact relation_apply v28 v30 v35 v38 p d

/-- Slabs 0 and 1's payload: the sum of the first two relations' results, as a slab. -/
theorem pay7_apply (a b : FVec Ideal S2000x128 .f32) (u : Fin 1) (p : Fin 2000) (d : Fin 128) :
    k0_pay7 (F := Ideal) a b (ix3 u p d) = a (ix2 p d) + b (ix2 p d) := by
  unfold k0_pay7 k0_pay6
  exact (shapeCast_ab_1ab_apply _ shapeCasts_S2000x128_S1x2000x128 u p d).trans (addf_apply a b _)

theorem pay8_apply (a b : FVec Ideal S2000x128 .f32) (u : Fin 1) (p : Fin 2000) (d : Fin 128) :
    k0_pay8 (F := Ideal) a b (ix3 u p d) = a (ix2 p d) + b (ix2 p d) := by
  unfold k0_pay8 k0_pay6
  exact (shapeCast_ab_1ab_apply _ shapeCasts_S2000x128_S1x2000x128 u p d).trans (addf_apply a b _)

/-- Slab 3's payload: a result laid as a slab. -/
theorem pay1_apply (a : FVec Ideal S2000x128 .f32) (u : Fin 1) (p : Fin 2000) (d : Fin 128) :
    k0_pay1 (F := Ideal) a (ix3 u p d) = a (ix2 p d) := by
  unfold k0_pay1
  exact shapeCast_ab_1ab_apply _ shapeCasts_S2000x128_S1x2000x128 u p d

end Cert.KernelIdeal.BlockValue

end
-- ==== Proof.BlockStack.lean ====
/-
  The body's result on one block as ONE function of the blocks it loads.

  The body stores four `[1,2000,128]` slabs into its `[4,2000,128]` output block, at slab offsets
  0, 1, 2 and 3.  Each store's value, at the slab's local entry `(u, p, d)`, is the block formula
  at the block's entry `(slab, p, d)`; the four slabs cover the block, so whatever order the stores
  came in, the block ends holding that formula everywhere.
-/
import proofs.«159375_j48275432407743_2_alg».proof.Proof.Gen.KernelIdeal.Frame
import proofs.«159375_j48275432407743_2_alg».proof.Proof.Payload

noncomputable section

namespace Cert.KernelIdeal.BlockValue

open Cert.KernelIdeal Cert.KernelIdeal.Gen Idealize.ShloMosaic Idealize.ShloMosaic.ValueIdx Cert.GraphStack

theorem zero_offsets2 : (![0, 0] : Fin 2 → Nat) = fun _ => 0 := funext fun a => by fin_cases a <;> rfl

/-- The block formula at an entry given by its three coordinates. -/
theorem bstack_ix3 (X0 X1 X2 X3 : (⟨2, ![2000, 128]⟩ : Shape).Idx → EReal)
    (C0 C1 C2 C3 : (⟨2, ![2000, 1]⟩ : Shape).Idx → EReal)
    (W0 W1 W2 W3 : (⟨2, ![128, 128]⟩ : Shape).Idx → EReal)
    (R0 R1 R2 R3 : (⟨2, ![1, 128]⟩ : Shape).Idx → EReal) (s : Fin 4) (p : Fin 2000) (d : Fin 128) :
    bstack X0 X1 X2 X3 C0 C1 C2 C3 W0 W1 W2 W3 R0 R1 R2 R3 (ix3 s p d) =
      if s.val < 2 then bconv X0 C0 W0 R0 p d + bconv X1 C1 W1 R1 p d
      else if s.val = 2 then bconv X2 C2 W2 R2 p d
      else bconv X3 C3 W3 R3 p d := rfl

/-- The slab stored at offset `o` on the leading axis sends its local entry `(u, p, d)` to the
    block's entry `(o, p, d)`. -/
theorem slab_emb (o : Nat) (ho : o < 4) (inb : ∀ a, (![o, 0, 0] : Fin 3 → Nat) a + S1x2000x128.size a ≤ S4x2000x128.size a)
    (u : Fin 1) (p : Fin 2000) (d : Fin 128) :
    (Rect.unit (s := S4x2000x128) ![o, 0, 0] S1x2000x128.size inb).emb (ix3 u p d) = ix3 (⟨o, ho⟩ : Fin 4) p d := by
  funext a
  apply Fin.ext
  match a with
  | ⟨0, _⟩ =>
    show o + 1 * u.val = o
    have := u.isLt
    omega
  | ⟨1, _⟩ =>
    show 0 + 1 * p.val = p.val
    omega
  | ⟨2, _⟩ =>
    show 0 + 1 * d.val = d.val
    omega

/-- What the body leaves in the output block, from the sixteen blocks it loads: the block formula. -/
theorem out_eq_bstack (x0 x1 x2 x3 : FVec Ideal S2000x128 .f32) (x4 x5 x6 x7 : FVec Ideal S2000x1 .f32)
    (x8 : FVec Ideal S128x128 .f32) (x9 : FVec Ideal S1x128 .f32) (x10 : FVec Ideal S128x128 .f32) (x11 : FVec Ideal S1x128 .f32)
    (x12 : FVec Ideal S128x128 .f32) (x13 : FVec Ideal S1x128 .f32) (x14 : FVec Ideal S128x128 .f32) (x15 : FVec Ideal S1x128 .f32) :
    out0_16 (F := Ideal) x0 x1 x2 x3 x4 x5 x6 x7 x8 x9 x10 x11 x12 x13 x14 x15
      = bstack x0 x1 x2 x3 x4 x5 x6 x7 x8 x10 x12 x14 x9 x11 x13 x15 := by
  unfold out0_16
  simp only [View.ld_unit_zero (S := S2000x128) zero_offsets2, View.ld_unit_zero (S := S2000x1) zero_offsets2,
    View.ld_unit_zero (S := S128x128) zero_offsets2, View.ld_unit_zero (S := S1x128) zero_offsets2]
  funext y
  refine View.canon_apply_of_pieces (Val := Elt Ideal) (S := S4x2000x128) (e := .f32) (bstack x0 x1 x2 x3 x4 x5 x6 x7 x8 x10 x12 x14 x9 x11 x13 x15) _ (fun q hq => ?_) y
    (cover0_16 _ _ _ _ y)
  simp only [List.mem_cons, List.not_mem_nil, or_false] at hq
  rcases hq with rfl | rfl | rfl | rfl
  · intro x
    obtain ⟨u, p, d, rfl⟩ : ∃ (u : Fin 1) (p : Fin 2000) (d : Fin 128), x = ix3 u p d := ⟨x 0, x 1, x 2, eq_ix3 x⟩
    show k0_pay1 (F := Ideal) (k0_pay5 (F := Ideal) x3 x7 x14 x15) (ix3 u p d) = _
    rw [pay1_apply, pay5_apply]
    show _ = bstack x0 x1 x2 x3 x4 x5 x6 x7 x8 x10 x12 x14 x9 x11 x13 x15 (r0_7.emb (ix3 u p d))
    rw [show r0_7.emb (ix3 u p d) = ix3 (⟨3, by decide⟩ : Fin 4) p d from slab_emb 3 (by decide) _ u p d, bstack_ix3,
      if_neg (by decide), if_neg (by decide)]
  · intro x
    obtain ⟨u, p, d, rfl⟩ : ∃ (u : Fin 1) (p : Fin 2000) (d : Fin 128), x = ix3 u p d := ⟨x 0, x 1, x 2, eq_ix3 x⟩
    show k0_pay9 (F := Ideal) (k0_pay4 (F := Ideal) x2 x6) x12 x13 (ix3 u p d) = _
    rw [pay9_apply]
    show _ = bstack x0 x1 x2 x3 x4 x5 x6 x7 x8 x10 x12 x14 x9 x11 x13 x15 (r0_6.emb (ix3 u p d))
    rw [show r0_6.emb (ix3 u p d) = ix3 (⟨2, by decide⟩ : Fin 4) p d from slab_emb 2 (by decide) _ u p d, bstack_ix3,
      if_neg (by decide), if_pos rfl]
  · intro x
    obtain ⟨u, p, d, rfl⟩ : ∃ (u : Fin 1) (p : Fin 2000) (d : Fin 128), x = ix3 u p d := ⟨x 0, x 1, x 2, eq_ix3 x⟩
    show k0_pay8 (F := Ideal) (k0_pay2 (F := Ideal) x0 x4 x8 x9) (k0_pay3 (F := Ideal) x1 x5 x10 x11) (ix3 u p d) = _
    rw [pay8_apply, pay2_apply, pay3_apply]
    show _ = bstack x0 x1 x2 x3 x4 x5 x6 x7 x8 x10 x12 x14 x9 x11 x13 x15 (r0_5.emb (ix3 u p d))
    rw [show r0_5.emb (ix3 u p d) = ix3 (⟨1, by decide⟩ : Fin 4) p d from slab_emb 1 (by decide) _ u p d, bstack_ix3,
      if_pos (by decide)]
  · intro x
    obtain ⟨u, p, d, rfl⟩ : ∃ (u : Fin 1) (p : Fin 2000) (d : Fin 128), x = ix3 u p d := ⟨x 0, x 1, x 2, eq_ix3 x⟩
    show k0_pay7 (F := Ideal) (k0_pay2 (F := Ideal) x0 x4 x8 x9) (k0_pay3 (F := Ideal) x1 x5 x10 x11) (ix3 u p d) = _
    rw [pay7_apply, pay2_apply, pay3_apply]
    show _ = bstack x0 x1 x2 x3 x4 x5 x6 x7 x8 x10 x12 x14 x9 x11 x13 x15 (r0_4.emb (ix3 u p d))
    rw [show r0_4.emb (ix3 u p d) = ix3 (⟨0, by decide⟩ : Fin 4) p d from slab_emb 0 (by decide) _ u p d, bstack_ix3,
      if_pos (by decide)]

end Cert.KernelIdeal.BlockValue

end
-- ==== Proof.Final.lean ====
/-
  From blocks to the array.

  The grid has 25 points; point `t` stages rows `2000·t … 2000·t + 1999` of the four aggregated
  arrays and of the four weight columns, the whole of every matrix and bias row, and writes back
  rows `2000·t … 2000·t + 1999` of all four slabs of the result.  So what point `t` writes back is
  block `t` of the stacked formula of the whole arrays; the 25 blocks cover the result; hence the
  result array ends holding the stacked formula of the arrays as the region finds them.
-/
import proofs.«159375_j48275432407743_2_alg».proof.Proof.Gen.KernelIdeal.Value
import proofs.«159375_j48275432407743_2_alg».proof.Proof.BlockStack

noncomputable section

namespace Cert.KernelIdeal.BlockValue

open Cert.KernelIdeal Cert.KernelIdeal.Gen Idealize.ShloMosaic Idealize.ShloMosaic.TcCoe Idealize.SL.Sem
open Idealize.ShloMosaic.ValueIdx Cert.GraphStack
open Idealize.ShloMosaic.Pipeline (Dat)

/-- How the windows' index maps move with the grid point (decided over the 25 points): the row
    windows follow the output's node axis, everything else stays at block 0. -/
theorem index_facts : ∀ t : Fin cfg0.N, win0_0.index t (0 : Fin 2) = win0_16.index t (1 : Fin 3)
    ∧ win0_0.index t (1 : Fin 2) = 0
    ∧ win0_1.index t (0 : Fin 2) = win0_16.index t (1 : Fin 3)
    ∧ win0_1.index t (1 : Fin 2) = 0
    ∧ win0_2.index t (0 : Fin 2) = win0_16.index t (1 : Fin 3)
    ∧ win0_2.index t (1 : Fin 2) = 0
    ∧ win0_3.index t (0 : Fin 2) = win0_16.index t (1 : Fin 3)
    ∧ win0_3.index t (1 : Fin 2) = 0
    ∧ win0_4.index t (0 : Fin 2) = win0_16.index t (1 : Fin 3)
    ∧ win0_4.index t (1 : Fin 2) = 0
    ∧ win0_5.index t (0 : Fin 2) = win0_16.index t (1 : Fin 3)
    ∧ win0_5.index t (1 : Fin 2) = 0
    ∧ win0_6.index t (0 : Fin 2) = win0_16.index t (1 : Fin 3)
    ∧ win0_6.index t (1 : Fin 2) = 0
    ∧ win0_7.index t (0 : Fin 2) = win0_16.index t (1 : Fin 3)
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 3) = 0
    ∧ win0_16.index t (2 : Fin 3) = 0
    ∧ win0_16.index t (1 : Fin 3) ≤ 24 :=
  (by decide +kernel : ∀ t : Fin grid0.N, _)

/-- Every block of 2000 nodes is some point's. -/
theorem index_onto : ∀ q : Fin 25, ∃ t : Fin cfg0.N, win0_16.index t = ![0, q.val, 0] :=
  (by decide +kernel : ∀ q : Fin 25, ∃ t : Fin grid0.N, win0_16.index t = ![0, q.val, 0])

/-- Block `t` of relation 0's aggregated rows, at `(p, k)`, is the array's row `2000·t + p`. -/
theorem rows0_read (A : S50000x128.Idx → EReal) (t : Fin cfg0.N) (p : Fin 2000) (k : Fin 128) (n : Fin 50000)
    (hn : n.val = win0_16.index t (1 : Fin 3) * 2000 + p.val) :
    ((cfg0.win 0).blk t).view.read (Elt Ideal) A (ix2 p k) = A (ix2 n k) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show A (((cfg0.win 0).blk t).view.emb (ix2 p k)) = A (ix2 n k)
  refine congrArg A (funext fun a => Fin.ext ?_)
  match a with
  | ⟨0, _⟩ =>
    show win0_0.index t (0 : Fin 2) * 2000 + 1 * p.val = n.val
    omega
  | ⟨1, _⟩ =>
    show win0_0.index t (1 : Fin 2) * 128 + 1 * k.val = k.val
    omega

/-- Block `t` of relation 1's aggregated rows, at `(p, k)`, is the array's row `2000·t + p`. -/
theorem rows1_read (A : S50000x128.Idx → EReal) (t : Fin cfg0.N) (p : Fin 2000) (k : Fin 128) (n : Fin 50000)
    (hn : n.val = win0_16.index t (1 : Fin 3) * 2000 + p.val) :
    ((cfg0.win 1).blk t).view.read (Elt Ideal) A (ix2 p k) = A (ix2 n k) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show A (((cfg0.win 1).blk t).view.emb (ix2 p k)) = A (ix2 n k)
  refine congrArg A (funext fun a => Fin.ext ?_)
  match a with
  | ⟨0, _⟩ =>
    show win0_1.index t (0 : Fin 2) * 2000 + 1 * p.val = n.val
    omega
  | ⟨1, _⟩ =>
    show win0_1.index t (1 : Fin 2) * 128 + 1 * k.val = k.val
    omega

/-- Block `t` of relation 2's aggregated rows, at `(p, k)`, is the array's row `2000·t + p`. -/
theorem rows2_read (A : S50000x128.Idx → EReal) (t : Fin cfg0.N) (p : Fin 2000) (k : Fin 128) (n : Fin 50000)
    (hn : n.val = win0_16.index t (1 : Fin 3) * 2000 + p.val) :
    ((cfg0.win 2).blk t).view.read (Elt Ideal) A (ix2 p k) = A (ix2 n k) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show A (((cfg0.win 2).blk t).view.emb (ix2 p k)) = A (ix2 n k)
  refine congrArg A (funext fun a => Fin.ext ?_)
  match a with
  | ⟨0, _⟩ =>
    show win0_2.index t (0 : Fin 2) * 2000 + 1 * p.val = n.val
    omega
  | ⟨1, _⟩ =>
    show win0_2.index t (1 : Fin 2) * 128 + 1 * k.val = k.val
    omega

/-- Block `t` of relation 3's aggregated rows, at `(p, k)`, is the array's row `2000·t + p`. -/
theorem rows3_read (A : S50000x128.Idx → EReal) (t : Fin cfg0.N) (p : Fin 2000) (k : Fin 128) (n : Fin 50000)
    (hn : n.val = win0_16.index t (1 : Fin 3) * 2000 + p.val) :
    ((cfg0.win 3).blk t).view.read (Elt Ideal) A (ix2 p k) = A (ix2 n k) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show A (((cfg0.win 3).blk t).view.emb (ix2 p k)) = A (ix2 n k)
  refine congrArg A (funext fun a => Fin.ext ?_)
  match a with
  | ⟨0, _⟩ =>
    show win0_3.index t (0 : Fin 2) * 2000 + 1 * p.val = n.val
    omega
  | ⟨1, _⟩ =>
    show win0_3.index t (1 : Fin 2) * 128 + 1 * k.val = k.val
    omega

/-- Block `t` of relation 0's weight column, at `(p, 0)`, is the array's entry of row `2000·t + p`. -/
theorem col0_read (C : S50000x1.Idx → EReal) (t : Fin cfg0.N) (p : Fin 2000) (n : Fin 50000)
    (hn : n.val = win0_16.index t (1 : Fin 3) * 2000 + p.val) :
    ((cfg0.win 4).blk t).view.read (Elt Ideal) C (ix2 p (0 : Fin 1)) = C (ix2 n (0 : Fin 1)) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show C (((cfg0.win 4).blk t).view.emb (ix2 p (0 : Fin 1))) = C (ix2 n (0 : Fin 1))
  refine congrArg C (funext fun a => Fin.ext ?_)
  match a with
  | ⟨0, _⟩ =>
    show win0_4.index t (0 : Fin 2) * 2000 + 1 * p.val = n.val
    omega
  | ⟨1, _⟩ =>
    show win0_4.index t (1 : Fin 2) * 1 + 1 * 0 = 0
    omega

/-- Block `t` of relation 1's weight column, at `(p, 0)`, is the array's entry of row `2000·t + p`. -/
theorem col1_read (C : S50000x1.Idx → EReal) (t : Fin cfg0.N) (p : Fin 2000) (n : Fin 50000)
    (hn : n.val = win0_16.index t (1 : Fin 3) * 2000 + p.val) :
    ((cfg0.win 5).blk t).view.read (Elt Ideal) C (ix2 p (0 : Fin 1)) = C (ix2 n (0 : Fin 1)) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show C (((cfg0.win 5).blk t).view.emb (ix2 p (0 : Fin 1))) = C (ix2 n (0 : Fin 1))
  refine congrArg C (funext fun a => Fin.ext ?_)
  match a with
  | ⟨0, _⟩ =>
    show win0_5.index t (0 : Fin 2) * 2000 + 1 * p.val = n.val
    omega
  | ⟨1, _⟩ =>
    show win0_5.index t (1 : Fin 2) * 1 + 1 * 0 = 0
    omega

/-- Block `t` of relation 2's weight column, at `(p, 0)`, is the array's entry of row `2000·t + p`. -/
theorem col2_read (C : S50000x1.Idx → EReal) (t : Fin cfg0.N) (p : Fin 2000) (n : Fin 50000)
    (hn : n.val = win0_16.index t (1 : Fin 3) * 2000 + p.val) :
    ((cfg0.win 6).blk t).view.read (Elt Ideal) C (ix2 p (0 : Fin 1)) = C (ix2 n (0 : Fin 1)) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show C (((cfg0.win 6).blk t).view.emb (ix2 p (0 : Fin 1))) = C (ix2 n (0 : Fin 1))
  refine congrArg C (funext fun a => Fin.ext ?_)
  match a with
  | ⟨0, _⟩ =>
    show win0_6.index t (0 : Fin 2) * 2000 + 1 * p.val = n.val
    omega
  | ⟨1, _⟩ =>
    show win0_6.index t (1 : Fin 2) * 1 + 1 * 0 = 0
    omega

/-- Block `t` of relation 3's weight column, at `(p, 0)`, is the array's entry of row `2000·t + p`. -/
theorem col3_read (C : S50000x1.Idx → EReal) (t : Fin cfg0.N) (p : Fin 2000) (n : Fin 50000)
    (hn : n.val = win0_16.index t (1 : Fin 3) * 2000 + p.val) :
    ((cfg0.win 7).blk t).view.read (Elt Ideal) C (ix2 p (0 : Fin 1)) = C (ix2 n (0 : Fin 1)) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show C (((cfg0.win 7).blk t).view.emb (ix2 p (0 : Fin 1))) = C (ix2 n (0 : Fin 1))
  refine congrArg C (funext fun a => Fin.ext ?_)
  match a with
  | ⟨0, _⟩ =>
    show win0_7.index t (0 : Fin 2) * 2000 + 1 * p.val = n.val
    omega
  | ⟨1, _⟩ =>
    show win0_7.index t (1 : Fin 2) * 1 + 1 * 0 = 0
    omega

/-- Relation 0's matrix is staged whole at every point. -/
theorem mat0_read (M : S128x128.Idx → EReal) (t : Fin cfg0.N) (k d : Fin 128) :
    ((cfg0.win 8).blk t).view.read (Elt Ideal) M (ix2 k d) = M (ix2 k d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show M (((cfg0.win 8).blk t).view.emb (ix2 k d)) = M (ix2 k d)
  refine congrArg M (funext fun a => Fin.ext ?_)
  match a with
  | ⟨0, _⟩ =>
    show win0_8.index t (0 : Fin 2) * 128 + 1 * k.val = k.val
    omega
  | ⟨1, _⟩ =>
    show win0_8.index t (1 : Fin 2) * 128 + 1 * d.val = d.val
    omega

/-- Relation 1's matrix is staged whole at every point. -/
theorem mat1_read (M : S128x128.Idx → EReal) (t : Fin cfg0.N) (k d : Fin 128) :
    ((cfg0.win 10).blk t).view.read (Elt Ideal) M (ix2 k d) = M (ix2 k d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show M (((cfg0.win 10).blk t).view.emb (ix2 k d)) = M (ix2 k d)
  refine congrArg M (funext fun a => Fin.ext ?_)
  match a with
  | ⟨0, _⟩ =>
    show win0_10.index t (0 : Fin 2) * 128 + 1 * k.val = k.val
    omega
  | ⟨1, _⟩ =>
    show win0_10.index t (1 : Fin 2) * 128 + 1 * d.val = d.val
    omega

/-- Relation 2's matrix is staged whole at every point. -/
theorem mat2_read (M : S128x128.Idx → EReal) (t : Fin cfg0.N) (k d : Fin 128) :
    ((cfg0.win 12).blk t).view.read (Elt Ideal) M (ix2 k d) = M (ix2 k d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show M (((cfg0.win 12).blk t).view.emb (ix2 k d)) = M (ix2 k d)
  refine congrArg M (funext fun a => Fin.ext ?_)
  match a with
  | ⟨0, _⟩ =>
    show win0_12.index t (0 : Fin 2) * 128 + 1 * k.val = k.val
    omega
  | ⟨1, _⟩ =>
    show win0_12.index t (1 : Fin 2) * 128 + 1 * d.val = d.val
    omega

/-- Relation 3's matrix is staged whole at every point. -/
theorem mat3_read (M : S128x128.Idx → EReal) (t : Fin cfg0.N) (k d : Fin 128) :
    ((cfg0.win 14).blk t).view.read (Elt Ideal) M (ix2 k d) = M (ix2 k d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show M (((cfg0.win 14).blk t).view.emb (ix2 k d)) = M (ix2 k d)
  refine congrArg M (funext fun a => Fin.ext ?_)
  match a with
  | ⟨0, _⟩ =>
    show win0_14.index t (0 : Fin 2) * 128 + 1 * k.val = k.val
    omega
  | ⟨1, _⟩ =>
    show win0_14.index t (1 : Fin 2) * 128 + 1 * d.val = d.val
    omega

/-- Relation 0's bias row is staged whole at every point. -/
theorem bias0_read (R : S1x128.Idx → EReal) (t : Fin cfg0.N) (d : Fin 128) :
    ((cfg0.win 9).blk t).view.read (Elt Ideal) R (ix2 (0 : Fin 1) d) = R (ix2 (0 : Fin 1) d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show R (((cfg0.win 9).blk t).view.emb (ix2 (0 : Fin 1) d)) = R (ix2 (0 : Fin 1) d)
  refine congrArg R (funext fun a => Fin.ext ?_)
  match a with
  | ⟨0, _⟩ =>
    show win0_9.index t (0 : Fin 2) * 1 + 1 * 0 = 0
    omega
  | ⟨1, _⟩ =>
    show win0_9.index t (1 : Fin 2) * 128 + 1 * d.val = d.val
    omega

/-- Relation 1's bias row is staged whole at every point. -/
theorem bias1_read (R : S1x128.Idx → EReal) (t : Fin cfg0.N) (d : Fin 128) :
    ((cfg0.win 11).blk t).view.read (Elt Ideal) R (ix2 (0 : Fin 1) d) = R (ix2 (0 : Fin 1) d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show R (((cfg0.win 11).blk t).view.emb (ix2 (0 : Fin 1) d)) = R (ix2 (0 : Fin 1) d)
  refine congrArg R (funext fun a => Fin.ext ?_)
  match a with
  | ⟨0, _⟩ =>
    show win0_11.index t (0 : Fin 2) * 1 + 1 * 0 = 0
    omega
  | ⟨1, _⟩ =>
    show win0_11.index t (1 : Fin 2) * 128 + 1 * d.val = d.val
    omega

/-- Relation 2's bias row is staged whole at every point. -/
theorem bias2_read (R : S1x128.Idx → EReal) (t : Fin cfg0.N) (d : Fin 128) :
    ((cfg0.win 13).blk t).view.read (Elt Ideal) R (ix2 (0 : Fin 1) d) = R (ix2 (0 : Fin 1) d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show R (((cfg0.win 13).blk t).view.emb (ix2 (0 : Fin 1) d)) = R (ix2 (0 : Fin 1) d)
  refine congrArg R (funext fun a => Fin.ext ?_)
  match a with
  | ⟨0, _⟩ =>
    show win0_13.index t (0 : Fin 2) * 1 + 1 * 0 = 0
    omega
  | ⟨1, _⟩ =>
    show win0_13.index t (1 : Fin 2) * 128 + 1 * d.val = d.val
    omega

/-- Relation 3's bias row is staged whole at every point. -/
theorem bias3_read (R : S1x128.Idx → EReal) (t : Fin cfg0.N) (d : Fin 128) :
    ((cfg0.win 15).blk t).view.read (Elt Ideal) R (ix2 (0 : Fin 1) d) = R (ix2 (0 : Fin 1) d) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  show R (((cfg0.win 15).blk t).view.emb (ix2 (0 : Fin 1) d)) = R (ix2 (0 : Fin 1) d)
  refine congrArg R (funext fun a => Fin.ext ?_)
  match a with
  | ⟨0, _⟩ =>
    show win0_15.index t (0 : Fin 2) * 1 + 1 * 0 = 0
    omega
  | ⟨1, _⟩ =>
    show win0_15.index t (1 : Fin 2) * 128 + 1 * d.val = d.val
    omega

/-- Relation 0 on block `t`: the block formula of the point's blocks is the array formula at row `2000·t + p`. -/
theorem conv0_block (A : S50000x128.Idx → EReal) (C : S50000x1.Idx → EReal) (M : S128x128.Idx → EReal) (R : S1x128.Idx → EReal)
    (t : Fin cfg0.N) (p : Fin 2000) (d : Fin 128) (n : Fin 50000)
    (hn : n.val = win0_16.index t (1 : Fin 3) * 2000 + p.val) :
    bconv (((cfg0.win 0).blk t).view.read (Elt Ideal) A) (((cfg0.win 4).blk t).view.read (Elt Ideal) C) (((cfg0.win 8).blk t).view.read (Elt Ideal) M) (((cfg0.win 9).blk t).view.read (Elt Ideal) R) p d
      = conv A C M R n d := by
  unfold bconv conv
  rw [bias0_read R t d, col0_read C t p n hn]
  refine congrArg (· + R (ix2 (0 : Fin 1) d)) (Finset.sum_congr rfl fun k _ => ?_)
  rw [rows0_read A t p k n hn, mat0_read M t k d]

/-- Relation 1 on block `t`: the block formula of the point's blocks is the array formula at row `2000·t + p`. -/
theorem conv1_block (A : S50000x128.Idx → EReal) (C : S50000x1.Idx → EReal) (M : S128x128.Idx → EReal) (R : S1x128.Idx → EReal)
    (t : Fin cfg0.N) (p : Fin 2000) (d : Fin 128) (n : Fin 50000)
    (hn : n.val = win0_16.index t (1 : Fin 3) * 2000 + p.val) :
    bconv (((cfg0.win 1).blk t).view.read (Elt Ideal) A) (((cfg0.win 5).blk t).view.read (Elt Ideal) C) (((cfg0.win 10).blk t).view.read (Elt Ideal) M) (((cfg0.win 11).blk t).view.read (Elt Ideal) R) p d
      = conv A C M R n d := by
  unfold bconv conv
  rw [bias1_read R t d, col1_read C t p n hn]
  refine congrArg (· + R (ix2 (0 : Fin 1) d)) (Finset.sum_congr rfl fun k _ => ?_)
  rw [rows1_read A t p k n hn, mat1_read M t k d]

/-- Relation 2 on block `t`: the block formula of the point's blocks is the array formula at row `2000·t + p`. -/
theorem conv2_block (A : S50000x128.Idx → EReal) (C : S50000x1.Idx → EReal) (M : S128x128.Idx → EReal) (R : S1x128.Idx → EReal)
    (t : Fin cfg0.N) (p : Fin 2000) (d : Fin 128) (n : Fin 50000)
    (hn : n.val = win0_16.index t (1 : Fin 3) * 2000 + p.val) :
    bconv (((cfg0.win 2).blk t).view.read (Elt Ideal) A) (((cfg0.win 6).blk t).view.read (Elt Ideal) C) (((cfg0.win 12).blk t).view.read (Elt Ideal) M) (((cfg0.win 13).blk t).view.read (Elt Ideal) R) p d
      = conv A C M R n d := by
  unfold bconv conv
  rw [bias2_read R t d, col2_read C t p n hn]
  refine congrArg (· + R (ix2 (0 : Fin 1) d)) (Finset.sum_congr rfl fun k _ => ?_)
  rw [rows2_read A t p k n hn, mat2_read M t k d]

/-- Relation 3 on block `t`: the block formula of the point's blocks is the array formula at row `2000·t + p`. -/
theorem conv3_block (A : S50000x128.Idx → EReal) (C : S50000x1.Idx → EReal) (M : S128x128.Idx → EReal) (R : S1x128.Idx → EReal)
    (t : Fin cfg0.N) (p : Fin 2000) (d : Fin 128) (n : Fin 50000)
    (hn : n.val = win0_16.index t (1 : Fin 3) * 2000 + p.val) :
    bconv (((cfg0.win 3).blk t).view.read (Elt Ideal) A) (((cfg0.win 7).blk t).view.read (Elt Ideal) C) (((cfg0.win 14).blk t).view.read (Elt Ideal) M) (((cfg0.win 15).blk t).view.read (Elt Ideal) R) p d
      = conv A C M R n d := by
  unfold bconv conv
  rw [bias3_read R t d, col3_read C t p n hn]
  refine congrArg (· + R (ix2 (0 : Fin 1) d)) (Finset.sum_congr rfl fun k _ => ?_)
  rw [rows3_read A t p k n hn, mat3_read M t k d]

/-- Block `t` of the stacked formula of sixteen arrays is the block formula of their blocks at `t`. -/
theorem block_of_stack (A0 A1 A2 A3 : S50000x128.Idx → EReal) (C0 C1 C2 C3 : S50000x1.Idx → EReal)
    (M0 M1 M2 M3 : S128x128.Idx → EReal) (R0 R1 R2 R3 : S1x128.Idx → EReal) (t : Fin cfg0.N) :
    (cfg0.win 16).cut (grid0.coords t) (bstack
      (((cfg0.win 0).blk t).view.read (Elt Ideal) A0)
      (((cfg0.win 1).blk t).view.read (Elt Ideal) A1)
      (((cfg0.win 2).blk t).view.read (Elt Ideal) A2)
      (((cfg0.win 3).blk t).view.read (Elt Ideal) A3)
      (((cfg0.win 4).blk t).view.read (Elt Ideal) C0)
      (((cfg0.win 5).blk t).view.read (Elt Ideal) C1)
      (((cfg0.win 6).blk t).view.read (Elt Ideal) C2)
      (((cfg0.win 7).blk t).view.read (Elt Ideal) C3)
      (((cfg0.win 8).blk t).view.read (Elt Ideal) M0)
      (((cfg0.win 10).blk t).view.read (Elt Ideal) M1)
      (((cfg0.win 12).blk t).view.read (Elt Ideal) M2)
      (((cfg0.win 14).blk t).view.read (Elt Ideal) M3)
      (((cfg0.win 9).blk t).view.read (Elt Ideal) R0)
      (((cfg0.win 11).blk t).view.read (Elt Ideal) R1)
      (((cfg0.win 13).blk t).view.read (Elt Ideal) R2)
      (((cfg0.win 15).blk t).view.read (Elt Ideal) R3))
      = ((cfg0.win 16).blk t).view.read (Elt Ideal) (stack A0 A1 A2 A3 C0 C1 C2 C3 M0 M1 M2 M3 R0 R1 R2 R3) := by
  obtain ⟨f0, f1, f2, f3, f4, f5, f6, f7, f8, f9, f10, f11, f12, f13, f14, f15, f16, f17, f18, f19, f20, f21, f22, f23, f24, f25, f26, f27, f28, f29, f30, f31, f32, f33, f34⟩ := index_facts t
  funext j
  obtain ⟨s, p, d, rfl⟩ : ∃ (s : Fin 4) (p : Fin 2000) (d : Fin 128), j = ix3 s p d := ⟨j 0, j 1, j 2, eq_ix3 j⟩
  have hp : p.val < 2000 := p.isLt
  have hrow : win0_16.index t (1 : Fin 3) * 2000 + p.val < 50000 := by omega
  have he : ((cfg0.win 16).blk t).view.emb (ix3 s p d)
      = ix3 s (⟨win0_16.index t (1 : Fin 3) * 2000 + p.val, hrow⟩ : Fin 50000) d := by
    funext a
    apply Fin.ext
    match a with
    | ⟨0, _⟩ =>
      show win0_16.index t (0 : Fin 3) * 4 + 1 * s.val = s.val
      omega
    | ⟨1, _⟩ =>
      show win0_16.index t (1 : Fin 3) * 2000 + 1 * p.val = win0_16.index t (1 : Fin 3) * 2000 + p.val
      omega
    | ⟨2, _⟩ =>
      show win0_16.index t (2 : Fin 3) * 128 + 1 * d.val = d.val
      omega
  show bstack
      (((cfg0.win 0).blk t).view.read (Elt Ideal) A0)
      (((cfg0.win 1).blk t).view.read (Elt Ideal) A1)
      (((cfg0.win 2).blk t).view.read (Elt Ideal) A2)
      (((cfg0.win 3).blk t).view.read (Elt Ideal) A3)
      (((cfg0.win 4).blk t).view.read (Elt Ideal) C0)
      (((cfg0.win 5).blk t).view.read (Elt Ideal) C1)
      (((cfg0.win 6).blk t).view.read (Elt Ideal) C2)
      (((cfg0.win 7).blk t).view.read (Elt Ideal) C3)
      (((cfg0.win 8).blk t).view.read (Elt Ideal) M0)
      (((cfg0.win 10).blk t).view.read (Elt Ideal) M1)
      (((cfg0.win 12).blk t).view.read (Elt Ideal) M2)
      (((cfg0.win 14).blk t).view.read (Elt Ideal) M3)
      (((cfg0.win 9).blk t).view.read (Elt Ideal) R0)
      (((cfg0.win 11).blk t).view.read (Elt Ideal) R1)
      (((cfg0.win 13).blk t).view.read (Elt Ideal) R2)
      (((cfg0.win 15).blk t).view.read (Elt Ideal) R3) (ix3 s p d)
    = stack A0 A1 A2 A3 C0 C1 C2 C3 M0 M1 M2 M3 R0 R1 R2 R3 (((cfg0.win 16).blk t).view.emb (ix3 s p d))
  rw [he, bstack_ix3, stack_ix3, conv0_block A0 C0 M0 R0 t p d ⟨_, hrow⟩ rfl, conv1_block A1 C1 M1 R1 t p d ⟨_, hrow⟩ rfl,
    conv2_block A2 C2 M2 R2 t p d ⟨_, hrow⟩ rfl, conv3_block A3 C3 M3 R3 t p d ⟨_, hrow⟩ rfl]

variable (m : (ℓ : Loc nD τ sig) → Buf (Elt Ideal) ℓ) (ρ : Dev nD → PrngReg)

/-- The stacked formula of the sixteen arrays the windows stage, as the region finds them. -/
abbrev result (c : Dev nD) : S4x50000x128.Idx → EReal :=
  stack (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7))
    (V m c (Pipeline.arrRef spec0 8)) (V m c (Pipeline.arrRef spec0 10)) (V m c (Pipeline.arrRef spec0 12)) (V m c (Pipeline.arrRef spec0 14))
    (V m c (Pipeline.arrRef spec0 9)) (V m c (Pipeline.arrRef spec0 11)) (V m c (Pipeline.arrRef spec0 13)) (V m c (Pipeline.arrRef spec0 15))

/-- What point `t` writes back is block `t` of the stacked formula. -/
theorem flushed_eq (c : Dev nD) (t : Fin cfg0.N) :
    (dats m 0 c).flushed 16 t = ((cfg0.win 16).blk t).view.read (Elt Ideal) (result m c) := by
  rw [Cert.KernelIdeal.Value.flushed16, out_eq_bstack]
  unfold iblk
  exact block_of_stack (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 10)) (V m c (Pipeline.arrRef spec0 12)) (V m c (Pipeline.arrRef spec0 14)) (V m c (Pipeline.arrRef spec0 9)) (V m c (Pipeline.arrRef spec0 11)) (V m c (Pipeline.arrRef spec0 13)) (V m c (Pipeline.arrRef spec0 15)) t

/-- An index of the result is in point `t`'s block iff each coordinate is in the block's range. -/
theorem mem_block (t : Fin cfg0.N) (i : S4x50000x128.Idx) :
    i ∈ ((cfg0.win 16).blk t).view.set ↔ ∀ a : Fin 3, win0_16.index t a * S4x2000x128.size a ≤ (i a).val
      ∧ (i a).val < win0_16.index t a * S4x2000x128.size a + S4x2000x128.size a := by
  show i ∈ ((View.whole main_v112).slice (win0_16.rect t)).set ↔ _
  rw [View.set_slice_whole, Rect.mem_set_unit]
  exact Iff.rfl

/-- Every entry of the result lies in the block of the point that owns its 2000 nodes. -/
theorem covered (i : S4x50000x128.Idx) :
    ∃ t : Fin cfg0.N, (cfg0.win 16).flush t = true ∧ i ∈ ((cfg0.win 16).blk t).view.set := by
  have hi0 : (i 0).val < 4 := (i 0).isLt
  have hi1 : (i 1).val < 50000 := (i 1).isLt
  have hi2 : (i 2).val < 128 := (i 2).isLt
  obtain ⟨t, ht⟩ := index_onto ⟨(i 1).val / 2000, by omega⟩
  have q0 : win0_16.index t (0 : Fin 3) = 0 := congrFun ht 0
  have q1 : win0_16.index t (1 : Fin 3) = (i 1).val / 2000 := congrFun ht 1
  have q2 : win0_16.index t (2 : Fin 3) = 0 := congrFun ht 2
  refine ⟨t, flush0_16 t, ?_⟩
  rw [mem_block]
  intro a
  match a with
  | ⟨0, _⟩ =>
    show win0_16.index t (0 : Fin 3) * 4 ≤ (i 0).val ∧ (i 0).val < win0_16.index t (0 : Fin 3) * 4 + 4
    omega
  | ⟨1, _⟩ =>
    show win0_16.index t (1 : Fin 3) * 2000 ≤ (i 1).val ∧ (i 1).val < win0_16.index t (1 : Fin 3) * 2000 + 2000
    omega
  | ⟨2, _⟩ =>
    show win0_16.index t (2 : Fin 3) * 128 ≤ (i 2).val ∧ (i 2).val < win0_16.index t (2 : Fin 3) * 128 + 128
    omega

/-- The result array after the run is the stacked formula of the arrays as the region finds them. -/
theorem final (c : Dev nD) : (dats m 0 c).arrAt 16 cfg0.N = result m c :=
  (dats m 0 c).arrAt_eq_of_cover 16 (result m c) (fun t _ => flushed_eq m c t) covered

end Cert.KernelIdeal.BlockValue

end
-- ==== Proof.HostSide.lean ====
/-
  What the region's input arrays hold when it is entered, as the reference's own stages of the argument arrays.

  Before its one region the kernel's program runs, for each of the four relations, the operations the reference
  runs up to its aggregation: the in-degree count of the source and of the destination indices (a sum of ones
  scattered over the edges), both clipped below at one; the features scaled by the inverse square root of the
  clipped source degree; their rows gathered along the edges (the source index wrapped when negative) and summed
  into the destination rows; and the inverse square root of the clipped destination degree as a column.  The one
  difference is that the kernel's program narrows the scaled features to a 16-bit format before the gather and
  widens the gathered rows back after it; on the extended reals both changes of format are the identity, so the
  two programs compute the same arrays.  Last, each bias vector is laid out as a one-row matrix, as in the
  reference.

  The operations come in seventeen stretches.  `W k` is the contents of the buffers after the first `k` of them;
  a stretch leaves every buffer it does not write as it was (`W k_keep`), and what it writes is its operations
  applied to what the earlier stretches left.  Each array a later stretch or the region reads is identified, stretch by
  stretch, with the reference's stage of the same name (`W k_‹buffer›`); the twelve arrays the region stages are the
  theorems `V_main_v…` at the end.  No scatter or gather is ever opened: the two sides are matched operation by
  operation.
-/
import proofs.«159375_j48275432407743_2_alg».proof.Proof.Gen.KernelIdeal.Frame
import proofs.«159375_j48275432407743_2_alg».proof.Proof.Gen.ReferenceIdeal.Read

noncomputable section

namespace Cert.KernelIdeal.HostValue

open Idealize.ShloMosaic Idealize.ShloMosaic.TcCoe Idealize.ShloMosaic.StableHlo
open Idealize.SL.Sem

variable (m : (ℓ : Loc nD τ sig) → Buf (Elt Ideal) ℓ) (c : Dev nD)

/-- The buffers of core `c` as launched. -/
def W0 : Valuation τ sig (Elt Ideal) := fun b => m (c, b)
/-- The buffers after the first stretch of operations. -/
def W1 : Valuation τ sig (Elt Ideal) := after (Gen.hostOps0 (F := Ideal)) (W0 m c)
/-- The buffers after the first 2 stretches of operations. -/
def W2 : Valuation τ sig (Elt Ideal) := after (Gen.hostOps0_1 (F := Ideal)) (W1 m c)
/-- The buffers after the first 3 stretches of operations. -/
def W3 : Valuation τ sig (Elt Ideal) := after (Gen.hostOps0_2 (F := Ideal)) (W2 m c)
/-- The buffers after the first 4 stretches of operations. -/
def W4 : Valuation τ sig (Elt Ideal) := after (Gen.hostOps0_3 (F := Ideal)) (W3 m c)
/-- The buffers after the first 5 stretches of operations. -/
def W5 : Valuation τ sig (Elt Ideal) := after (Gen.hostOps0_4 (F := Ideal)) (W4 m c)
/-- The buffers after the first 6 stretches of operations. -/
def W6 : Valuation τ sig (Elt Ideal) := after (Gen.hostOps0_5 (F := Ideal)) (W5 m c)
/-- The buffers after the first 7 stretches of operations. -/
def W7 : Valuation τ sig (Elt Ideal) := after (Gen.hostOps0_6 (F := Ideal)) (W6 m c)
/-- The buffers after the first 8 stretches of operations. -/
def W8 : Valuation τ sig (Elt Ideal) := after (Gen.hostOps0_7 (F := Ideal)) (W7 m c)
/-- The buffers after the first 9 stretches of operations. -/
def W9 : Valuation τ sig (Elt Ideal) := after (Gen.hostOps0_8 (F := Ideal)) (W8 m c)
/-- The buffers after the first 10 stretches of operations. -/
def W10 : Valuation τ sig (Elt Ideal) := after (Gen.hostOps0_9 (F := Ideal)) (W9 m c)
/-- The buffers after the first 11 stretches of operations. -/
def W11 : Valuation τ sig (Elt Ideal) := after (Gen.hostOps0_10 (F := Ideal)) (W10 m c)
/-- The buffers after the first 12 stretches of operations. -/
def W12 : Valuation τ sig (Elt Ideal) := after (Gen.hostOps0_11 (F := Ideal)) (W11 m c)
/-- The buffers after the first 13 stretches of operations. -/
def W13 : Valuation τ sig (Elt Ideal) := after (Gen.hostOps0_12 (F := Ideal)) (W12 m c)
/-- The buffers after the first 14 stretches of operations. -/
def W14 : Valuation τ sig (Elt Ideal) := after (Gen.hostOps0_13 (F := Ideal)) (W13 m c)
/-- The buffers after the first 15 stretches of operations. -/
def W15 : Valuation τ sig (Elt Ideal) := after (Gen.hostOps0_14 (F := Ideal)) (W14 m c)
/-- The buffers after the first 16 stretches of operations. -/
def W16 : Valuation τ sig (Elt Ideal) := after (Gen.hostOps0_15 (F := Ideal)) (W15 m c)
/-- The buffers after the first 17 stretches of operations. -/
def W17 : Valuation τ sig (Elt Ideal) := after (Gen.hostOps0_16 (F := Ideal)) (W16 m c)

/-- What the region finds is the last of these. -/
theorem V_eq (b : Ref sig .tc) : Gen.V (F := Ideal) m c b = W17 m c (Proc.devRef .tc b) := by
  show after (List.flatten [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16]) (fun b => m (c, b)) (Proc.devRef .tc b) = _
  simp only [List.flatten_cons, List.flatten_nil, List.append_nil, after_append]
  rfl

/-- One operation writes only its result buffer, which is in the stretch's list. -/
local macro "writes_one" : tactic =>
  `(tactic| (simp only [nullary_writes, unary_writes, binary_writes, ternary_writes, Finset.singleton_subset_iff, List.mem_toFinset]
             exact List.mem_map_of_mem (by decide)))

/-- On extended reals a change of float format is the identity, on whole arrays too: narrowing … -/
theorem truncf_ideal {s : Shape} {φ ψ : FTy} (a : FVec Ideal s φ) (h : ψ.bits < φ.bits) :
    (truncf ψ a h : FVec Ideal s ψ) = a := rfl
/-- … and widening. -/
theorem extf_ideal {s : Shape} {φ ψ : FTy} (a : FVec Ideal s φ) (h : φ.bits < ψ.bits) :
    (extf ψ a h : FVec Ideal s ψ) = a := rfl
/-- A buffer as launched. -/
theorem W0_apply (r : Ref sig .tc) : W0 m c (no_index (Proc.devRef .tc r)) = m ((c : Thread nD τ).loc r) := rfl

/-! ## What each stretch writes, and that it leaves the rest -/

/-- The buffers stretch 1 writes. -/
abbrev wl1 : List (Ref sig .tc) := [main_cst, main_v0, main_cst_0, main_v1, main_v2, main_v3, main_cst_1]
theorem writes1 : (Gen.hostOps0 (F := Ideal)).Forall fun op => op.writes ⊆ (wl1.map (Proc.devRef (τ := τ) .tc)).toFinset := by
  simp only [List.Forall]
  repeat' apply And.intro
  all_goals writes_one
/-- A buffer stretch 1 does not write keeps its contents through it. -/
theorem W1_keep (r : Ref sig .tc) (h : r ∉ wl1) : W1 m c (no_index (Proc.devRef .tc r)) = W0 m c (Proc.devRef .tc r) :=
  after_of_writes_sub _ _ writes1 h

/-- The buffers stretch 2 writes. -/
abbrev wl2 : List (Ref sig .tc) := [main_call0_v0, main_call0_v1, main_v4]
theorem writes2 : (Gen.hostOps0_1 (F := Ideal)).Forall fun op => op.writes ⊆ (wl2.map (Proc.devRef (τ := τ) .tc)).toFinset := by
  simp only [List.Forall]
  repeat' apply And.intro
  all_goals writes_one
/-- A buffer stretch 2 does not write keeps its contents through it. -/
theorem W2_keep (r : Ref sig .tc) (h : r ∉ wl2) : W2 m c (no_index (Proc.devRef .tc r)) = W1 m c (Proc.devRef .tc r) :=
  after_of_writes_sub _ _ writes2 h

/-- The buffers stretch 3 writes. -/
abbrev wl3 : List (Ref sig .tc) := [main_cst_2, main_v5, main_v6, main_v7, main_cst_3]
theorem writes3 : (Gen.hostOps0_2 (F := Ideal)).Forall fun op => op.writes ⊆ (wl3.map (Proc.devRef (τ := τ) .tc)).toFinset := by
  simp only [List.Forall]
  repeat' apply And.intro
  all_goals writes_one
/-- A buffer stretch 3 does not write keeps its contents through it. -/
theorem W3_keep (r : Ref sig .tc) (h : r ∉ wl3) : W3 m c (no_index (Proc.devRef .tc r)) = W2 m c (Proc.devRef .tc r) :=
  after_of_writes_sub _ _ writes3 h

/-- The buffers stretch 4 writes. -/
abbrev wl4 : List (Ref sig .tc) := [main_call1_v0, main_call1_v1, main_v8]
theorem writes4 : (Gen.hostOps0_3 (F := Ideal)).Forall fun op => op.writes ⊆ (wl4.map (Proc.devRef (τ := τ) .tc)).toFinset := by
  simp only [List.Forall]
  repeat' apply And.intro
  all_goals writes_one
/-- A buffer stretch 4 does not write keeps its contents through it. -/
theorem W4_keep (r : Ref sig .tc) (h : r ∉ wl4) : W4 m c (no_index (Proc.devRef .tc r)) = W3 m c (Proc.devRef .tc r) :=
  after_of_writes_sub _ _ writes4 h

/-- The buffers stretch 5 writes. -/
abbrev wl5 : List (Ref sig .tc) := [main_v9, main_v10, main_v11, main_v12, main_v13, main_c, main_v14, main_v15, main_c_4, main_v16, main_v17, main_v18, main_v19, main_v20, main_v21, main_cst_5, main_v22, main_v23, main_v24, main_v25, main_v26, main_cst_6, main_v27, main_cst_7, main_v28, main_v29, main_v30, main_cst_8]
theorem writes5 : (Gen.hostOps0_4 (F := Ideal)).Forall fun op => op.writes ⊆ (wl5.map (Proc.devRef (τ := τ) .tc)).toFinset := by
  simp only [List.Forall]
  repeat' apply And.intro
  all_goals writes_one
/-- A buffer stretch 5 does not write keeps its contents through it. -/
theorem W5_keep (r : Ref sig .tc) (h : r ∉ wl5) : W5 m c (no_index (Proc.devRef .tc r)) = W4 m c (Proc.devRef .tc r) :=
  after_of_writes_sub _ _ writes5 h

/-- The buffers stretch 6 writes. -/
abbrev wl6 : List (Ref sig .tc) := [main_call2_v0, main_call2_v1, main_v31]
theorem writes6 : (Gen.hostOps0_5 (F := Ideal)).Forall fun op => op.writes ⊆ (wl6.map (Proc.devRef (τ := τ) .tc)).toFinset := by
  simp only [List.Forall]
  repeat' apply And.intro
  all_goals writes_one
/-- A buffer stretch 6 does not write keeps its contents through it. -/
theorem W6_keep (r : Ref sig .tc) (h : r ∉ wl6) : W6 m c (no_index (Proc.devRef .tc r)) = W5 m c (Proc.devRef .tc r) :=
  after_of_writes_sub _ _ writes6 h

/-- The buffers stretch 7 writes. -/
abbrev wl7 : List (Ref sig .tc) := [main_cst_9, main_v32, main_v33, main_v34, main_cst_10]
theorem writes7 : (Gen.hostOps0_6 (F := Ideal)).Forall fun op => op.writes ⊆ (wl7.map (Proc.devRef (τ := τ) .tc)).toFinset := by
  simp only [List.Forall]
  repeat' apply And.intro
  all_goals writes_one
/-- A buffer stretch 7 does not write keeps its contents through it. -/
theorem W7_keep (r : Ref sig .tc) (h : r ∉ wl7) : W7 m c (no_index (Proc.devRef .tc r)) = W6 m c (Proc.devRef .tc r) :=
  after_of_writes_sub _ _ writes7 h

/-- The buffers stretch 8 writes. -/
abbrev wl8 : List (Ref sig .tc) := [main_call3_v0, main_call3_v1, main_v35]
theorem writes8 : (Gen.hostOps0_7 (F := Ideal)).Forall fun op => op.writes ⊆ (wl8.map (Proc.devRef (τ := τ) .tc)).toFinset := by
  simp only [List.Forall]
  repeat' apply And.intro
  all_goals writes_one
/-- A buffer stretch 8 does not write keeps its contents through it. -/
theorem W8_keep (r : Ref sig .tc) (h : r ∉ wl8) : W8 m c (no_index (Proc.devRef .tc r)) = W7 m c (Proc.devRef .tc r) :=
  after_of_writes_sub _ _ writes8 h

/-- The buffers stretch 9 writes. -/
abbrev wl9 : List (Ref sig .tc) := [main_v36, main_v37, main_v38, main_v39, main_v40, main_c_11, main_v41, main_v42, main_c_12, main_v43, main_v44, main_v45, main_v46, main_v47, main_v48, main_cst_13, main_v49, main_v50, main_v51, main_v52, main_v53, main_cst_14, main_v54, main_cst_15, main_v55, main_v56, main_v57, main_cst_16]
theorem writes9 : (Gen.hostOps0_8 (F := Ideal)).Forall fun op => op.writes ⊆ (wl9.map (Proc.devRef (τ := τ) .tc)).toFinset := by
  simp only [List.Forall]
  repeat' apply And.intro
  all_goals writes_one
/-- A buffer stretch 9 does not write keeps its contents through it. -/
theorem W9_keep (r : Ref sig .tc) (h : r ∉ wl9) : W9 m c (no_index (Proc.devRef .tc r)) = W8 m c (Proc.devRef .tc r) :=
  after_of_writes_sub _ _ writes9 h

/-- The buffers stretch 10 writes. -/
abbrev wl10 : List (Ref sig .tc) := [main_call4_v0, main_call4_v1, main_v58]
theorem writes10 : (Gen.hostOps0_9 (F := Ideal)).Forall fun op => op.writes ⊆ (wl10.map (Proc.devRef (τ := τ) .tc)).toFinset := by
  simp only [List.Forall]
  repeat' apply And.intro
  all_goals writes_one
/-- A buffer stretch 10 does not write keeps its contents through it. -/
theorem W10_keep (r : Ref sig .tc) (h : r ∉ wl10) : W10 m c (no_index (Proc.devRef .tc r)) = W9 m c (Proc.devRef .tc r) :=
  after_of_writes_sub _ _ writes10 h

/-- The buffers stretch 11 writes. -/
abbrev wl11 : List (Ref sig .tc) := [main_cst_17, main_v59, main_v60, main_v61, main_cst_18]
theorem writes11 : (Gen.hostOps0_10 (F := Ideal)).Forall fun op => op.writes ⊆ (wl11.map (Proc.devRef (τ := τ) .tc)).toFinset := by
  simp only [List.Forall]
  repeat' apply And.intro
  all_goals writes_one
/-- A buffer stretch 11 does not write keeps its contents through it. -/
theorem W11_keep (r : Ref sig .tc) (h : r ∉ wl11) : W11 m c (no_index (Proc.devRef .tc r)) = W10 m c (Proc.devRef .tc r) :=
  after_of_writes_sub _ _ writes11 h

/-- The buffers stretch 12 writes. -/
abbrev wl12 : List (Ref sig .tc) := [main_call5_v0, main_call5_v1, main_v62]
theorem writes12 : (Gen.hostOps0_11 (F := Ideal)).Forall fun op => op.writes ⊆ (wl12.map (Proc.devRef (τ := τ) .tc)).toFinset := by
  simp only [List.Forall]
  repeat' apply And.intro
  all_goals writes_one
/-- A buffer stretch 12 does not write keeps its contents through it. -/
theorem W12_keep (r : Ref sig .tc) (h : r ∉ wl12) : W12 m c (no_index (Proc.devRef .tc r)) = W11 m c (Proc.devRef .tc r) :=
  after_of_writes_sub _ _ writes12 h

/-- The buffers stretch 13 writes. -/
abbrev wl13 : List (Ref sig .tc) := [main_v63, main_v64, main_v65, main_v66, main_v67, main_c_19, main_v68, main_v69, main_c_20, main_v70, main_v71, main_v72, main_v73, main_v74, main_v75, main_cst_21, main_v76, main_v77, main_v78, main_v79, main_v80, main_cst_22, main_v81, main_cst_23, main_v82, main_v83, main_v84, main_cst_24]
theorem writes13 : (Gen.hostOps0_12 (F := Ideal)).Forall fun op => op.writes ⊆ (wl13.map (Proc.devRef (τ := τ) .tc)).toFinset := by
  simp only [List.Forall]
  repeat' apply And.intro
  all_goals writes_one
/-- A buffer stretch 13 does not write keeps its contents through it. -/
theorem W13_keep (r : Ref sig .tc) (h : r ∉ wl13) : W13 m c (no_index (Proc.devRef .tc r)) = W12 m c (Proc.devRef .tc r) :=
  after_of_writes_sub _ _ writes13 h

/-- The buffers stretch 14 writes. -/
abbrev wl14 : List (Ref sig .tc) := [main_call6_v0, main_call6_v1, main_v85]
theorem writes14 : (Gen.hostOps0_13 (F := Ideal)).Forall fun op => op.writes ⊆ (wl14.map (Proc.devRef (τ := τ) .tc)).toFinset := by
  simp only [List.Forall]
  repeat' apply And.intro
  all_goals writes_one
/-- A buffer stretch 14 does not write keeps its contents through it. -/
theorem W14_keep (r : Ref sig .tc) (h : r ∉ wl14) : W14 m c (no_index (Proc.devRef .tc r)) = W13 m c (Proc.devRef .tc r) :=
  after_of_writes_sub _ _ writes14 h

/-- The buffers stretch 15 writes. -/
abbrev wl15 : List (Ref sig .tc) := [main_cst_25, main_v86, main_v87, main_v88, main_cst_26]
theorem writes15 : (Gen.hostOps0_14 (F := Ideal)).Forall fun op => op.writes ⊆ (wl15.map (Proc.devRef (τ := τ) .tc)).toFinset := by
  simp only [List.Forall]
  repeat' apply And.intro
  all_goals writes_one
/-- A buffer stretch 15 does not write keeps its contents through it. -/
theorem W15_keep (r : Ref sig .tc) (h : r ∉ wl15) : W15 m c (no_index (Proc.devRef .tc r)) = W14 m c (Proc.devRef .tc r) :=
  after_of_writes_sub _ _ writes15 h

/-- The buffers stretch 16 writes. -/
abbrev wl16 : List (Ref sig .tc) := [main_call7_v0, main_call7_v1, main_v89]
theorem writes16 : (Gen.hostOps0_15 (F := Ideal)).Forall fun op => op.writes ⊆ (wl16.map (Proc.devRef (τ := τ) .tc)).toFinset := by
  simp only [List.Forall]
  repeat' apply And.intro
  all_goals writes_one
/-- A buffer stretch 16 does not write keeps its contents through it. -/
theorem W16_keep (r : Ref sig .tc) (h : r ∉ wl16) : W16 m c (no_index (Proc.devRef .tc r)) = W15 m c (Proc.devRef .tc r) :=
  after_of_writes_sub _ _ writes16 h

/-- The buffers stretch 17 writes. -/
abbrev wl17 : List (Ref sig .tc) := [main_v90, main_v91, main_v92, main_v93, main_v94, main_c_27, main_v95, main_v96, main_c_28, main_v97, main_v98, main_v99, main_v100, main_v101, main_v102, main_cst_29, main_v103, main_v104, main_v105, main_v106, main_v107, main_v108, main_v109, main_v110, main_v111]
theorem writes17 : (Gen.hostOps0_16 (F := Ideal)).Forall fun op => op.writes ⊆ (wl17.map (Proc.devRef (τ := τ) .tc)).toFinset := by
  simp only [List.Forall]
  repeat' apply And.intro
  all_goals writes_one
/-- A buffer stretch 17 does not write keeps its contents through it. -/
theorem W17_keep (r : Ref sig .tc) (h : r ∉ wl17) : W17 m c (no_index (Proc.devRef .tc r)) = W16 m c (Proc.devRef .tc r) :=
  after_of_writes_sub _ _ writes17 h

/-! ## The first relation: degrees from arguments 12 and 13, features argument 2 -/

/-- After stretch 1, `main_v3` holds the reference's stage `val_main_v3`. -/
theorem W1_v3 : W1 m c (no_index (Proc.devRef .tc main_v3)) = ReferenceIdeal.Read.val_main_v3 (F := Ideal) (m ((c : Thread nD τ).loc main_arg12)) := by
  unfold W1
  simp only [Gen.hostOps0]
  after_results_simp
  simp (disch := decide) only [W0_apply]
  rfl

/-- After stretch 1, `main_cst_1` holds the reference's stage `val_main_cst_1`. -/
theorem W1_cst_1 : W1 m c (no_index (Proc.devRef .tc main_cst_1)) = ReferenceIdeal.Read.val_main_cst_1 (F := Ideal) := by
  unfold W1
  simp only [Gen.hostOps0]
  after_results_simp
  rfl

/-- After stretch 1, `main_v0` holds the reference's stage `val_main_v0`. -/
theorem W1_v0 : W1 m c (no_index (Proc.devRef .tc main_v0)) = ReferenceIdeal.Read.val_main_v0 (F := Ideal) := by
  unfold W1
  simp only [Gen.hostOps0]
  after_results_simp
  rfl

/-- The three operations of the clipping call 0, over the buffers themselves. -/
theorem hostOps0_1_eq : (Gen.hostOps0_1 (F := Ideal)) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S50000 ![] Gen.bcast_S_S50000 : (⟨S_, .f32⟩ : BufTy).Contents (Elt Ideal) → (⟨S50000, .f32⟩ : BufTy).Contents (Elt Ideal)),
      StableHlo.binary main_call0_v1 main_v3 main_v4 (maximumf (F := Ideal) (s := S50000) (φ := .f32)) ] := rfl

/-- After stretch 2, `main_v4` holds the reference's stage `val_main_v4`. -/
theorem W2_v4 : W2 m c (no_index (Proc.devRef .tc main_v4)) = ReferenceIdeal.Read.val_main_v4 (F := Ideal) (m ((c : Thread nD τ).loc main_arg12)) := by
  unfold W2
  rw [hostOps0_1_eq]
  after_results_simp
  simp (disch := decide) only [W1_keep, W1_v3, W1_cst_1, W0_apply]
  rfl

/-- After stretch 3, `main_v7` holds the reference's stage `val_main_v7`. -/
theorem W3_v7 : W3 m c (no_index (Proc.devRef .tc main_v7)) = ReferenceIdeal.Read.val_main_v7 (F := Ideal) (m ((c : Thread nD τ).loc main_arg13)) := by
  unfold W3
  simp only [Gen.hostOps0_2]
  after_results_simp
  simp (disch := decide) only [W1_keep, W2_keep, W1_v0, W0_apply]
  rfl

/-- After stretch 3, `main_cst_3` holds the reference's stage `val_main_cst_3`. -/
theorem W3_cst_3 : W3 m c (no_index (Proc.devRef .tc main_cst_3)) = ReferenceIdeal.Read.val_main_cst_3 (F := Ideal) := by
  unfold W3
  simp only [Gen.hostOps0_2]
  after_results_simp
  rfl

/-- The three operations of the clipping call 1, over the buffers themselves. -/
theorem hostOps0_3_eq : (Gen.hostOps0_3 (F := Ideal)) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] Gen.bcast_S_S50000 : (⟨S_, .f32⟩ : BufTy).Contents (Elt Ideal) → (⟨S50000, .f32⟩ : BufTy).Contents (Elt Ideal)),
      StableHlo.binary main_call1_v1 main_v7 main_v8 (maximumf (F := Ideal) (s := S50000) (φ := .f32)) ] := rfl

/-- After stretch 4, `main_v8` holds the reference's stage `val_main_v8`. -/
theorem W4_v8 : W4 m c (no_index (Proc.devRef .tc main_v8)) = ReferenceIdeal.Read.val_main_v8 (F := Ideal) (m ((c : Thread nD τ).loc main_arg13)) := by
  unfold W4
  rw [hostOps0_3_eq]
  after_results_simp
  simp (disch := decide) only [W1_keep, W2_keep, W3_keep, W3_v7, W3_cst_3, W0_apply]
  rfl

/-- After stretch 5, `main_v26` holds the reference's stage `val_main_v24`. -/
theorem W5_v26 : W5 m c (no_index (Proc.devRef .tc main_v26)) = ReferenceIdeal.Read.val_main_v24 (F := Ideal) (m ((c : Thread nD τ).loc main_arg13)) := by
  unfold W5
  simp only [Gen.hostOps0_4]
  after_results_simp
  simp (disch := decide) only [W1_keep, W2_keep, W3_keep, W4_keep, W4_v8, W0_apply]
  rfl

/-- After stretch 5, `main_v24` holds the reference's stage `val_main_v22`. -/
theorem W5_v24 : W5 m c (no_index (Proc.devRef .tc main_v24)) = ReferenceIdeal.Read.val_main_v22 (F := Ideal) (m ((c : Thread nD τ).loc main_arg2)) (m ((c : Thread nD τ).loc main_arg12)) (m ((c : Thread nD τ).loc main_arg13)) := by
  unfold W5
  simp only [Gen.hostOps0_4]
  after_results_simp
  simp (disch := decide) only [W1_keep, W2_keep, W3_keep, W4_keep, W2_v4, W0_apply]
  simp only [truncf_ideal, extf_ideal]
  rfl

/-- After stretch 5, `main_v27` holds the reference's stage `val_main_v31`. -/
theorem W5_v27 : W5 m c (no_index (Proc.devRef .tc main_v27)) = ReferenceIdeal.Read.val_main_v31 (F := Ideal) := by
  unfold W5
  simp only [Gen.hostOps0_4]
  after_results_simp
  rfl

/-- After stretch 5, `main_v30` holds the reference's stage `val_main_v34`. -/
theorem W5_v30 : W5 m c (no_index (Proc.devRef .tc main_v30)) = ReferenceIdeal.Read.val_main_v34 (F := Ideal) (m ((c : Thread nD τ).loc main_arg14)) := by
  unfold W5
  simp only [Gen.hostOps0_4]
  after_results_simp
  simp (disch := decide) only [W1_keep, W2_keep, W3_keep, W4_keep, W0_apply]
  rfl

/-- After stretch 5, `main_cst_8` holds the reference's stage `val_main_cst_8`. -/
theorem W5_cst_8 : W5 m c (no_index (Proc.devRef .tc main_cst_8)) = ReferenceIdeal.Read.val_main_cst_8 (F := Ideal) := by
  unfold W5
  simp only [Gen.hostOps0_4]
  after_results_simp
  rfl

/-! ## The second relation: degrees from arguments 14 and 15, features argument 3 -/

/-- The three operations of the clipping call 2, over the buffers themselves. -/
theorem hostOps0_5_eq : (Gen.hostOps0_5 (F := Ideal)) =
    [ StableHlo.unary main_cst_8 main_call2_v0 (id : (⟨S_, .f32⟩ : BufTy).Contents (Elt Ideal) → (⟨S_, .f32⟩ : BufTy).Contents (Elt Ideal)),
      StableHlo.unary main_call2_v0 main_call2_v1 (broadcastInDim S50000 ![] Gen.bcast_S_S50000 : (⟨S_, .f32⟩ : BufTy).Contents (Elt Ideal) → (⟨S50000, .f32⟩ : BufTy).Contents (Elt Ideal)),
      StableHlo.binary main_call2_v1 main_v30 main_v31 (maximumf (F := Ideal) (s := S50000) (φ := .f32)) ] := rfl

/-- After stretch 6, `main_v31` holds the reference's stage `val_main_v35`. -/
theorem W6_v31 : W6 m c (no_index (Proc.devRef .tc main_v31)) = ReferenceIdeal.Read.val_main_v35 (F := Ideal) (m ((c : Thread nD τ).loc main_arg14)) := by
  unfold W6
  rw [hostOps0_5_eq]
  after_results_simp
  simp (disch := decide) only [W1_keep, W2_keep, W3_keep, W4_keep, W5_keep, W5_v30, W5_cst_8, W0_apply]
  rfl

/-- After stretch 7, `main_v34` holds the reference's stage `val_main_v38`. -/
theorem W7_v34 : W7 m c (no_index (Proc.devRef .tc main_v34)) = ReferenceIdeal.Read.val_main_v38 (F := Ideal) (m ((c : Thread nD τ).loc main_arg15)) := by
  unfold W7
  simp only [Gen.hostOps0_6]
  after_results_simp
  simp (disch := decide) only [W1_keep, W2_keep, W3_keep, W4_keep, W5_keep, W6_keep, W5_v27, W0_apply]
  rfl

/-- After stretch 7, `main_cst_10` holds the reference's stage `val_main_cst_10`. -/
theorem W7_cst_10 : W7 m c (no_index (Proc.devRef .tc main_cst_10)) = ReferenceIdeal.Read.val_main_cst_10 (F := Ideal) := by
  unfold W7
  simp only [Gen.hostOps0_6]
  after_results_simp
  rfl

/-- The three operations of the clipping call 3, over the buffers themselves. -/
theorem hostOps0_7_eq : (Gen.hostOps0_7 (F := Ideal)) =
    [ StableHlo.unary main_cst_10 main_call3_v0 (id : (⟨S_, .f32⟩ : BufTy).Contents (Elt Ideal) → (⟨S_, .f32⟩ : BufTy).Contents (Elt Ideal)),
      StableHlo.unary main_call3_v0 main_call3_v1 (broadcastInDim S50000 ![] Gen.bcast_S_S50000 : (⟨S_, .f32⟩ : BufTy).Contents (Elt Ideal) → (⟨S50000, .f32⟩ : BufTy).Contents (Elt Ideal)),
      StableHlo.binary main_call3_v1 main_v34 main_v35 (maximumf (F := Ideal) (s := S50000) (φ := .f32)) ] := rfl

/-- After stretch 8, `main_v35` holds the reference's stage `val_main_v39`. -/
theorem W8_v35 : W8 m c (no_index (Proc.devRef .tc main_v35)) = ReferenceIdeal.Read.val_main_v39 (F := Ideal) (m ((c : Thread nD τ).loc main_arg15)) := by
  unfold W8
  rw [hostOps0_7_eq]
  after_results_simp
  simp (disch := decide) only [W1_keep, W2_keep, W3_keep, W4_keep, W5_keep, W6_keep, W7_keep, W7_v34, W7_cst_10, W0_apply]
  rfl

/-- After stretch 9, `main_v53` holds the reference's stage `val_main_v55`. -/
theorem W9_v53 : W9 m c (no_index (Proc.devRef .tc main_v53)) = ReferenceIdeal.Read.val_main_v55 (F := Ideal) (m ((c : Thread nD τ).loc main_arg15)) := by
  unfold W9
  simp only [Gen.hostOps0_8]
  after_results_simp
  simp (disch := decide) only [W1_keep, W2_keep, W3_keep, W4_keep, W5_keep, W6_keep, W7_keep, W8_keep, W8_v35, W0_apply]
  rfl

/-- After stretch 9, `main_v51` holds the reference's stage `val_main_v53`. -/
theorem W9_v51 : W9 m c (no_index (Proc.devRef .tc main_v51)) = ReferenceIdeal.Read.val_main_v53 (F := Ideal) (m ((c : Thread nD τ).loc main_arg3)) (m ((c : Thread nD τ).loc main_arg14)) (m ((c : Thread nD τ).loc main_arg15)) := by
  unfold W9
  simp only [Gen.hostOps0_8]
  after_results_simp
  simp (disch := decide) only [W1_keep, W2_keep, W3_keep, W4_keep, W5_keep, W6_keep, W7_keep, W8_keep, W6_v31, W0_apply]
  simp only [truncf_ideal, extf_ideal]
  rfl

/-- After stretch 9, `main_v54` holds the reference's stage `val_main_v63`. -/
theorem W9_v54 : W9 m c (no_index (Proc.devRef .tc main_v54)) = ReferenceIdeal.Read.val_main_v63 (F := Ideal) := by
  unfold W9
  simp only [Gen.hostOps0_8]
  after_results_simp
  rfl

/-- After stretch 9, `main_v57` holds the reference's stage `val_main_v66`. -/
theorem W9_v57 : W9 m c (no_index (Proc.devRef .tc main_v57)) = ReferenceIdeal.Read.val_main_v66 (F := Ideal) (m ((c : Thread nD τ).loc main_arg16)) := by
  unfold W9
  simp only [Gen.hostOps0_8]
  after_results_simp
  simp (disch := decide) only [W1_keep, W2_keep, W3_keep, W4_keep, W5_keep, W6_keep, W7_keep, W8_keep, W0_apply]
  rfl

/-- After stretch 9, `main_cst_16` holds the reference's stage `val_main_cst_16`. -/
theorem W9_cst_16 : W9 m c (no_index (Proc.devRef .tc main_cst_16)) = ReferenceIdeal.Read.val_main_cst_16 (F := Ideal) := by
  unfold W9
  simp only [Gen.hostOps0_8]
  after_results_simp
  rfl

/-! ## The third relation: degrees from arguments 16 and 17, features argument 0 -/

/-- The three operations of the clipping call 4, over the buffers themselves. -/
theorem hostOps0_9_eq : (Gen.hostOps0_9 (F := Ideal)) =
    [ StableHlo.unary main_cst_16 main_call4_v0 (id : (⟨S_, .f32⟩ : BufTy).Contents (Elt Ideal) → (⟨S_, .f32⟩ : BufTy).Contents (Elt Ideal)),
      StableHlo.unary main_call4_v0 main_call4_v1 (broadcastInDim S50000 ![] Gen.bcast_S_S50000 : (⟨S_, .f32⟩ : BufTy).Contents (Elt Ideal) → (⟨S50000, .f32⟩ : BufTy).Contents (Elt Ideal)),
      StableHlo.binary main_call4_v1 main_v57 main_v58 (maximumf (F := Ideal) (s := S50000) (φ := .f32)) ] := rfl

/-- After stretch 10, `main_v58` holds the reference's stage `val_main_v67`. -/
theorem W10_v58 : W10 m c (no_index (Proc.devRef .tc main_v58)) = ReferenceIdeal.Read.val_main_v67 (F := Ideal) (m ((c : Thread nD τ).loc main_arg16)) := by
  unfold W10
  rw [hostOps0_9_eq]
  after_results_simp
  simp (disch := decide) only [W1_keep, W2_keep, W3_keep, W4_keep, W5_keep, W6_keep, W7_keep, W8_keep, W9_keep, W9_v57, W9_cst_16, W0_apply]
  rfl

/-- After stretch 11, `main_v61` holds the reference's stage `val_main_v70`. -/
theorem W11_v61 : W11 m c (no_index (Proc.devRef .tc main_v61)) = ReferenceIdeal.Read.val_main_v70 (F := Ideal) (m ((c : Thread nD τ).loc main_arg17)) := by
  unfold W11
  simp only [Gen.hostOps0_10]
  after_results_simp
  simp (disch := decide) only [W1_keep, W2_keep, W3_keep, W4_keep, W5_keep, W6_keep, W7_keep, W8_keep, W9_keep, W10_keep, W9_v54, W0_apply]
  rfl

/-- After stretch 11, `main_cst_18` holds the reference's stage `val_main_cst_18`. -/
theorem W11_cst_18 : W11 m c (no_index (Proc.devRef .tc main_cst_18)) = ReferenceIdeal.Read.val_main_cst_18 (F := Ideal) := by
  unfold W11
  simp only [Gen.hostOps0_10]
  after_results_simp
  rfl

/-- The three operations of the clipping call 5, over the buffers themselves. -/
theorem hostOps0_11_eq : (Gen.hostOps0_11 (F := Ideal)) =
    [ StableHlo.unary main_cst_18 main_call5_v0 (id : (⟨S_, .f32⟩ : BufTy).Contents (Elt Ideal) → (⟨S_, .f32⟩ : BufTy).Contents (Elt Ideal)),
      StableHlo.unary main_call5_v0 main_call5_v1 (broadcastInDim S50000 ![] Gen.bcast_S_S50000 : (⟨S_, .f32⟩ : BufTy).Contents (Elt Ideal) → (⟨S50000, .f32⟩ : BufTy).Contents (Elt Ideal)),
      StableHlo.binary main_call5_v1 main_v61 main_v62 (maximumf (F := Ideal) (s := S50000) (φ := .f32)) ] := rfl

/-- After stretch 12, `main_v62` holds the reference's stage `val_main_v71`. -/
theorem W12_v62 : W12 m c (no_index (Proc.devRef .tc main_v62)) = ReferenceIdeal.Read.val_main_v71 (F := Ideal) (m ((c : Thread nD τ).loc main_arg17)) := by
  unfold W12
  rw [hostOps0_11_eq]
  after_results_simp
  simp (disch := decide) only [W1_keep, W2_keep, W3_keep, W4_keep, W5_keep, W6_keep, W7_keep, W8_keep, W9_keep, W10_keep, W11_keep, W11_v61, W11_cst_18, W0_apply]
  rfl

/-- After stretch 13, `main_v80` holds the reference's stage `val_main_v87`. -/
theorem W13_v80 : W13 m c (no_index (Proc.devRef .tc main_v80)) = ReferenceIdeal.Read.val_main_v87 (F := Ideal) (m ((c : Thread nD τ).loc main_arg17)) := by
  unfold W13
  simp only [Gen.hostOps0_12]
  after_results_simp
  simp (disch := decide) only [W1_keep, W2_keep, W3_keep, W4_keep, W5_keep, W6_keep, W7_keep, W8_keep, W9_keep, W10_keep, W11_keep, W12_keep, W12_v62, W0_apply]
  rfl

/-- After stretch 13, `main_v78` holds the reference's stage `val_main_v85`. -/
theorem W13_v78 : W13 m c (no_index (Proc.devRef .tc main_v78)) = ReferenceIdeal.Read.val_main_v85 (F := Ideal) (m ((c : Thread nD τ).loc main_arg0)) (m ((c : Thread nD τ).loc main_arg16)) (m ((c : Thread nD τ).loc main_arg17)) := by
  unfold W13
  simp only [Gen.hostOps0_12]
  after_results_simp
  simp (disch := decide) only [W1_keep, W2_keep, W3_keep, W4_keep, W5_keep, W6_keep, W7_keep, W8_keep, W9_keep, W10_keep, W11_keep, W12_keep, W10_v58, W0_apply]
  simp only [truncf_ideal, extf_ideal]
  rfl

/-- After stretch 13, `main_v81` holds the reference's stage `val_main_v94`. -/
theorem W13_v81 : W13 m c (no_index (Proc.devRef .tc main_v81)) = ReferenceIdeal.Read.val_main_v94 (F := Ideal) := by
  unfold W13
  simp only [Gen.hostOps0_12]
  after_results_simp
  rfl

/-- After stretch 13, `main_v84` holds the reference's stage `val_main_v97`. -/
theorem W13_v84 : W13 m c (no_index (Proc.devRef .tc main_v84)) = ReferenceIdeal.Read.val_main_v97 (F := Ideal) (m ((c : Thread nD τ).loc main_arg18)) := by
  unfold W13
  simp only [Gen.hostOps0_12]
  after_results_simp
  simp (disch := decide) only [W1_keep, W2_keep, W3_keep, W4_keep, W5_keep, W6_keep, W7_keep, W8_keep, W9_keep, W10_keep, W11_keep, W12_keep, W0_apply]
  rfl

/-- After stretch 13, `main_cst_24` holds the reference's stage `val_main_cst_24`. -/
theorem W13_cst_24 : W13 m c (no_index (Proc.devRef .tc main_cst_24)) = ReferenceIdeal.Read.val_main_cst_24 (F := Ideal) := by
  unfold W13
  simp only [Gen.hostOps0_12]
  after_results_simp
  rfl

/-! ## The fourth relation: degrees from arguments 18 and 19, features argument 1; and the four bias rows -/

/-- The three operations of the clipping call 6, over the buffers themselves. -/
theorem hostOps0_13_eq : (Gen.hostOps0_13 (F := Ideal)) =
    [ StableHlo.unary main_cst_24 main_call6_v0 (id : (⟨S_, .f32⟩ : BufTy).Contents (Elt Ideal) → (⟨S_, .f32⟩ : BufTy).Contents (Elt Ideal)),
      StableHlo.unary main_call6_v0 main_call6_v1 (broadcastInDim S50000 ![] Gen.bcast_S_S50000 : (⟨S_, .f32⟩ : BufTy).Contents (Elt Ideal) → (⟨S50000, .f32⟩ : BufTy).Contents (Elt Ideal)),
      StableHlo.binary main_call6_v1 main_v84 main_v85 (maximumf (F := Ideal) (s := S50000) (φ := .f32)) ] := rfl

/-- After stretch 14, `main_v85` holds the reference's stage `val_main_v98`. -/
theorem W14_v85 : W14 m c (no_index (Proc.devRef .tc main_v85)) = ReferenceIdeal.Read.val_main_v98 (F := Ideal) (m ((c : Thread nD τ).loc main_arg18)) := by
  unfold W14
  rw [hostOps0_13_eq]
  after_results_simp
  simp (disch := decide) only [W1_keep, W2_keep, W3_keep, W4_keep, W5_keep, W6_keep, W7_keep, W8_keep, W9_keep, W10_keep, W11_keep, W12_keep, W13_keep, W13_v84, W13_cst_24, W0_apply]
  rfl

/-- After stretch 15, `main_v88` holds the reference's stage `val_main_v101`. -/
theorem W15_v88 : W15 m c (no_index (Proc.devRef .tc main_v88)) = ReferenceIdeal.Read.val_main_v101 (F := Ideal) (m ((c : Thread nD τ).loc main_arg19)) := by
  unfold W15
  simp only [Gen.hostOps0_14]
  after_results_simp
  simp (disch := decide) only [W1_keep, W2_keep, W3_keep, W4_keep, W5_keep, W6_keep, W7_keep, W8_keep, W9_keep, W10_keep, W11_keep, W12_keep, W13_keep, W14_keep, W13_v81, W0_apply]
  rfl

/-- After stretch 15, `main_cst_26` holds the reference's stage `val_main_cst_26`. -/
theorem W15_cst_26 : W15 m c (no_index (Proc.devRef .tc main_cst_26)) = ReferenceIdeal.Read.val_main_cst_26 (F := Ideal) := by
  unfold W15
  simp only [Gen.hostOps0_14]
  after_results_simp
  rfl

/-- The three operations of the clipping call 7, over the buffers themselves. -/
theorem hostOps0_15_eq : (Gen.hostOps0_15 (F := Ideal)) =
    [ StableHlo.unary main_cst_26 main_call7_v0 (id : (⟨S_, .f32⟩ : BufTy).Contents (Elt Ideal) → (⟨S_, .f32⟩ : BufTy).Contents (Elt Ideal)),
      StableHlo.unary main_call7_v0 main_call7_v1 (broadcastInDim S50000 ![] Gen.bcast_S_S50000 : (⟨S_, .f32⟩ : BufTy).Contents (Elt Ideal) → (⟨S50000, .f32⟩ : BufTy).Contents (Elt Ideal)),
      StableHlo.binary main_call7_v1 main_v88 main_v89 (maximumf (F := Ideal) (s := S50000) (φ := .f32)) ] := rfl

/-- After stretch 16, `main_v89` holds the reference's stage `val_main_v102`. -/
theorem W16_v89 : W16 m c (no_index (Proc.devRef .tc main_v89)) = ReferenceIdeal.Read.val_main_v102 (F := Ideal) (m ((c : Thread nD τ).loc main_arg19)) := by
  unfold W16
  rw [hostOps0_15_eq]
  after_results_simp
  simp (disch := decide) only [W1_keep, W2_keep, W3_keep, W4_keep, W5_keep, W6_keep, W7_keep, W8_keep, W9_keep, W10_keep, W11_keep, W12_keep, W13_keep, W14_keep, W15_keep, W15_v88, W15_cst_26, W0_apply]
  rfl

/-- After stretch 17, `main_v107` holds the reference's stage `val_main_v118`. -/
theorem W17_v107 : W17 m c (no_index (Proc.devRef .tc main_v107)) = ReferenceIdeal.Read.val_main_v118 (F := Ideal) (m ((c : Thread nD τ).loc main_arg19)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W16_v89, W0_apply]
  rfl

/-- After stretch 17, `main_v105` holds the reference's stage `val_main_v116`. -/
theorem W17_v105 : W17 m c (no_index (Proc.devRef .tc main_v105)) = ReferenceIdeal.Read.val_main_v116 (F := Ideal) (m ((c : Thread nD τ).loc main_arg1)) (m ((c : Thread nD τ).loc main_arg18)) (m ((c : Thread nD τ).loc main_arg19)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W14_v85, W0_apply]
  simp only [truncf_ideal, extf_ideal]
  rfl

/-- After stretch 17, `main_v108` holds the reference's stage `val_main_v28`. -/
theorem W17_v108 : W17 m c (no_index (Proc.devRef .tc main_v108)) = ReferenceIdeal.Read.val_main_v28 (F := Ideal) (m ((c : Thread nD τ).loc main_arg5)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W0_apply]
  rfl

/-- After stretch 17, `main_v109` holds the reference's stage `val_main_v59`. -/
theorem W17_v109 : W17 m c (no_index (Proc.devRef .tc main_v109)) = ReferenceIdeal.Read.val_main_v59 (F := Ideal) (m ((c : Thread nD τ).loc main_arg7)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W0_apply]
  rfl

/-- After stretch 17, `main_v110` holds the reference's stage `val_main_v91`. -/
theorem W17_v110 : W17 m c (no_index (Proc.devRef .tc main_v110)) = ReferenceIdeal.Read.val_main_v91 (F := Ideal) (m ((c : Thread nD τ).loc main_arg9)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W0_apply]
  rfl

/-- After stretch 17, `main_v111` holds the reference's stage `val_main_v122`. -/
theorem W17_v111 : W17 m c (no_index (Proc.devRef .tc main_v111)) = ReferenceIdeal.Read.val_main_v122 (F := Ideal) (m ((c : Thread nD τ).loc main_arg11)) := by
  unfold W17
  simp only [Gen.hostOps0_16]
  after_results_simp
  simp (disch := decide) only [W1_keep, W2_keep, W3_keep, W4_keep, W5_keep, W6_keep, W7_keep, W8_keep, W9_keep, W10_keep, W11_keep, W12_keep, W13_keep, W14_keep, W15_keep, W16_keep, W0_apply]
  rfl

/-! ## The twelve arrays the region stages -/

/-- The region finds in `main_v24` the reference's stage `val_main_v22` of the arguments as launched. -/
theorem V_main_v24 : (Gen.V (F := Ideal) m c main_v24 : S50000x128.Idx → EReal) = ReferenceIdeal.Read.val_main_v22 (F := Ideal) (m ((c : Thread nD τ).loc main_arg2)) (m ((c : Thread nD τ).loc main_arg12)) (m ((c : Thread nD τ).loc main_arg13)) := by
  rw [V_eq]
  simp (disch := decide) only [W17_keep, W16_keep, W15_keep, W14_keep, W13_keep, W12_keep, W11_keep, W10_keep, W9_keep, W8_keep, W7_keep, W6_keep, W5_v24]

/-- The region finds in `main_v51` the reference's stage `val_main_v53` of the arguments as launched. -/
theorem V_main_v51 : (Gen.V (F := Ideal) m c main_v51 : S50000x128.Idx → EReal) = ReferenceIdeal.Read.val_main_v53 (F := Ideal) (m ((c : Thread nD τ).loc main_arg3)) (m ((c : Thread nD τ).loc main_arg14)) (m ((c : Thread nD τ).loc main_arg15)) := by
  rw [V_eq]
  simp (disch := decide) only [W17_keep, W16_keep, W15_keep, W14_keep, W13_keep, W12_keep, W11_keep, W10_keep, W9_v51]

/-- The region finds in `main_v78` the reference's stage `val_main_v85` of the arguments as launched. -/
theorem V_main_v78 : (Gen.V (F := Ideal) m c main_v78 : S50000x128.Idx → EReal) = ReferenceIdeal.Read.val_main_v85 (F := Ideal) (m ((c : Thread nD τ).loc main_arg0)) (m ((c : Thread nD τ).loc main_arg16)) (m ((c : Thread nD τ).loc main_arg17)) := by
  rw [V_eq]
  simp (disch := decide) only [W17_keep, W16_keep, W15_keep, W14_keep, W13_v78]

/-- The region finds in `main_v105` the reference's stage `val_main_v116` of the arguments as launched. -/
theorem V_main_v105 : (Gen.V (F := Ideal) m c main_v105 : S50000x128.Idx → EReal) = ReferenceIdeal.Read.val_main_v116 (F := Ideal) (m ((c : Thread nD τ).loc main_arg1)) (m ((c : Thread nD τ).loc main_arg18)) (m ((c : Thread nD τ).loc main_arg19)) := by
  rw [V_eq]
  simp (disch := decide) only [W17_v105]

/-- The region finds in `main_v26` the reference's stage `val_main_v24` of the arguments as launched. -/
theorem V_main_v26 : (Gen.V (F := Ideal) m c main_v26 : S50000x1.Idx → EReal) = ReferenceIdeal.Read.val_main_v24 (F := Ideal) (m ((c : Thread nD τ).loc main_arg13)) := by
  rw [V_eq]
  simp (disch := decide) only [W17_keep, W16_keep, W15_keep, W14_keep, W13_keep, W12_keep, W11_keep, W10_keep, W9_keep, W8_keep, W7_keep, W6_keep, W5_v26]

/-- The region finds in `main_v53` the reference's stage `val_main_v55` of the arguments as launched. -/
theorem V_main_v53 : (Gen.V (F := Ideal) m c main_v53 : S50000x1.Idx → EReal) = ReferenceIdeal.Read.val_main_v55 (F := Ideal) (m ((c : Thread nD τ).loc main_arg15)) := by
  rw [V_eq]
  simp (disch := decide) only [W17_keep, W16_keep, W15_keep, W14_keep, W13_keep, W12_keep, W11_keep, W10_keep, W9_v53]

/-- The region finds in `main_v80` the reference's stage `val_main_v87` of the arguments as launched. -/
theorem V_main_v80 : (Gen.V (F := Ideal) m c main_v80 : S50000x1.Idx → EReal) = ReferenceIdeal.Read.val_main_v87 (F := Ideal) (m ((c : Thread nD τ).loc main_arg17)) := by
  rw [V_eq]
  simp (disch := decide) only [W17_keep, W16_keep, W15_keep, W14_keep, W13_v80]

/-- The region finds in `main_v107` the reference's stage `val_main_v118` of the arguments as launched. -/
theorem V_main_v107 : (Gen.V (F := Ideal) m c main_v107 : S50000x1.Idx → EReal) = ReferenceIdeal.Read.val_main_v118 (F := Ideal) (m ((c : Thread nD τ).loc main_arg19)) := by
  rw [V_eq]
  simp (disch := decide) only [W17_v107]

/-- The region finds in `main_v108` the reference's stage `val_main_v28` of the arguments as launched. -/
theorem V_main_v108 : (Gen.V (F := Ideal) m c main_v108 : S1x128.Idx → EReal) = ReferenceIdeal.Read.val_main_v28 (F := Ideal) (m ((c : Thread nD τ).loc main_arg5)) := by
  rw [V_eq]
  simp (disch := decide) only [W17_v108]

/-- The region finds in `main_v109` the reference's stage `val_main_v59` of the arguments as launched. -/
theorem V_main_v109 : (Gen.V (F := Ideal) m c main_v109 : S1x128.Idx → EReal) = ReferenceIdeal.Read.val_main_v59 (F := Ideal) (m ((c : Thread nD τ).loc main_arg7)) := by
  rw [V_eq]
  simp (disch := decide) only [W17_v109]

/-- The region finds in `main_v110` the reference's stage `val_main_v91` of the arguments as launched. -/
theorem V_main_v110 : (Gen.V (F := Ideal) m c main_v110 : S1x128.Idx → EReal) = ReferenceIdeal.Read.val_main_v91 (F := Ideal) (m ((c : Thread nD τ).loc main_arg9)) := by
  rw [V_eq]
  simp (disch := decide) only [W17_v110]

/-- The region finds in `main_v111` the reference's stage `val_main_v122` of the arguments as launched. -/
theorem V_main_v111 : (Gen.V (F := Ideal) m c main_v111 : S1x128.Idx → EReal) = ReferenceIdeal.Read.val_main_v122 (F := Ideal) (m ((c : Thread nD τ).loc main_arg11)) := by
  rw [V_eq]
  simp (disch := decide) only [W17_v111]

end Cert.KernelIdeal.HostValue
end
-- ==== Proof.RefStack.lean ====
/-
  The reference's result as the stacked specification of its own intermediate arrays.

  Each relation's update is  (A ⊙ C) · W + R  read at a node and a feature: the matrix product is a sum over
  the 128 features of the scaled aggregated messages, the weight column is read at column 0, the bias row at
  row 0.  The result stacks four such node-by-feature slabs; the first two slabs are both the sum of the first
  two relations' updates.  The aggregated messages, the weight columns and the bias rows stay closed: nothing
  here depends on how they were computed from the edges.
-/
import proofs.«159375_j48275432407743_2_alg».proof.Proof.Gen.ReferenceIdeal.Read
import proofs.«159375_j48275432407743_2_alg».proof.Proof.Spec
import Idealize.ShloMosaic.Lib.Pipeline.Value
import Idealize.ShloMosaic.Lib.ValueIdx
import Idealize.ShloMosaic.PureOps.Ideal

noncomputable section

namespace Cert.ReferenceIdeal.RefValue

open Cert.ReferenceIdeal Idealize.ShloMosaic Idealize.ShloMosaic.ValueIdx

/-- The update of the relation whose aggregated messages are `v22`: at node `n` and feature `d` it is the
    row of aggregated messages scaled by the node's weight, times the weight matrix, plus the bias. The matrix
    product contracts over the 128 features; the two broadcasts read the weight column at `(n, 0)` and the
    bias row at `(0, d)`. -/
theorem val_main_v30_conv (x2 : (⟨S50000x128, .f32⟩ : BufTy).Contents (Elt Ideal))
    (x4 : (⟨S128x128, .f32⟩ : BufTy).Contents (Elt Ideal)) (x5 : (⟨S128, .f32⟩ : BufTy).Contents (Elt Ideal))
    (x12 x13 : (⟨S800000, .i32⟩ : BufTy).Contents (Elt Ideal)) (n : Fin 50000) (d : Fin 128) :
    Read.val_main_v30 (F := Ideal) x2 x4 x5 x12 x13 (ix2 n d)
      = Cert.GraphStack.conv (Read.val_main_v22 (F := Ideal) x2 x12 x13) (Read.val_main_v24 (F := Ideal) x13) x4
          (Read.val_main_v28 (F := Ideal) x5) n d := by
  have el : ∀ k : Fin 128, Read.lidx_main_v27 (ix2 n d) k = ix2 n k := fun k =>
    funext fun a => by match a with | ⟨0, _⟩ => rfl | ⟨1, _⟩ => rfl
  have er : ∀ k : Fin 128, Read.ridx_main_v27 (ix2 n d) k = ix2 k d := fun k =>
    funext fun a => by match a with | ⟨0, _⟩ => rfl | ⟨1, _⟩ => rfl
  have ec : ∀ k : Fin 128, Read.idx_main_v25 (ix2 n k) = ix2 n (0 : Fin 1) := fun k =>
    funext fun a => by match a with | ⟨0, _⟩ => rfl | ⟨1, _⟩ => rfl
  have eb : Read.idx_main_v29 (ix2 n d) = ix2 (0 : Fin 1) d :=
    funext fun a => by match a with | ⟨0, _⟩ => rfl | ⟨1, _⟩ => rfl
  -- one term of the contraction: the scaled message times the matrix entry
  have hs : ∀ k : Fin 128,
      Read.val_main_v26 (F := Ideal) x2 x12 x13 (Read.lidx_main_v27 (ix2 n d) k) * x4 (Read.ridx_main_v27 (ix2 n d) k)
        = Read.val_main_v22 (F := Ideal) x2 x12 x13 (ix2 n k) * Read.val_main_v24 (F := Ideal) x13 (ix2 n (0 : Fin 1))
            * x4 (ix2 k d) := fun k => by
    rw [el, er, Read.val_main_v26_apply, Read.val_main_v25_apply, ec, Ideal.mulf_def]
  rw [Read.val_main_v30_apply, Read.val_main_v27_apply, Read.val_main_v29_apply, eb]
  unfold Cert.GraphStack.conv
  rw [Ideal.addf_def, Finset.sum_congr rfl fun k _ => hs k]

/-- The update of the relation whose aggregated messages are `v53`: at node `n` and feature `d` it is the
    row of aggregated messages scaled by the node's weight, times the weight matrix, plus the bias. The matrix
    product contracts over the 128 features; the two broadcasts read the weight column at `(n, 0)` and the
    bias row at `(0, d)`. -/
theorem val_main_v61_conv (x3 : (⟨S50000x128, .f32⟩ : BufTy).Contents (Elt Ideal))
    (x6 : (⟨S128x128, .f32⟩ : BufTy).Contents (Elt Ideal)) (x7 : (⟨S128, .f32⟩ : BufTy).Contents (Elt Ideal))
    (x14 x15 : (⟨S800000, .i32⟩ : BufTy).Contents (Elt Ideal)) (n : Fin 50000) (d : Fin 128) :
    Read.val_main_v61 (F := Ideal) x3 x6 x7 x14 x15 (ix2 n d)
      = Cert.GraphStack.conv (Read.val_main_v53 (F := Ideal) x3 x14 x15) (Read.val_main_v55 (F := Ideal) x15) x6
          (Read.val_main_v59 (F := Ideal) x7) n d := by
  have el : ∀ k : Fin 128, Read.lidx_main_v58 (ix2 n d) k = ix2 n k := fun k =>
    funext fun a => by match a with | ⟨0, _⟩ => rfl | ⟨1, _⟩ => rfl
  have er : ∀ k : Fin 128, Read.ridx_main_v58 (ix2 n d) k = ix2 k d := fun k =>
    funext fun a => by match a with | ⟨0, _⟩ => rfl | ⟨1, _⟩ => rfl
  have ec : ∀ k : Fin 128, Read.idx_main_v56 (ix2 n k) = ix2 n (0 : Fin 1) := fun k =>
    funext fun a => by match a with | ⟨0, _⟩ => rfl | ⟨1, _⟩ => rfl
  have eb : Read.idx_main_v60 (ix2 n d) = ix2 (0 : Fin 1) d :=
    funext fun a => by match a with | ⟨0, _⟩ => rfl | ⟨1, _⟩ => rfl
  -- one term of the contraction: the scaled message times the matrix entry
  have hs : ∀ k : Fin 128,
      Read.val_main_v57 (F := Ideal) x3 x14 x15 (Read.lidx_main_v58 (ix2 n d) k) * x6 (Read.ridx_main_v58 (ix2 n d) k)
        = Read.val_main_v53 (F := Ideal) x3 x14 x15 (ix2 n k) * Read.val_main_v55 (F := Ideal) x15 (ix2 n (0 : Fin 1))
            * x6 (ix2 k d) := fun k => by
    rw [el, er, Read.val_main_v57_apply, Read.val_main_v56_apply, ec, Ideal.mulf_def]
  rw [Read.val_main_v61_apply, Read.val_main_v58_apply, Read.val_main_v60_apply, eb]
  unfold Cert.GraphStack.conv
  rw [Ideal.addf_def, Finset.sum_congr rfl fun k _ => hs k]

/-- The update of the relation whose aggregated messages are `v85`: at node `n` and feature `d` it is the
    row of aggregated messages scaled by the node's weight, times the weight matrix, plus the bias. The matrix
    product contracts over the 128 features; the two broadcasts read the weight column at `(n, 0)` and the
    bias row at `(0, d)`. -/
theorem val_main_v93_conv (x0 : (⟨S50000x128, .f32⟩ : BufTy).Contents (Elt Ideal))
    (x8 : (⟨S128x128, .f32⟩ : BufTy).Contents (Elt Ideal)) (x9 : (⟨S128, .f32⟩ : BufTy).Contents (Elt Ideal))
    (x16 x17 : (⟨S800000, .i32⟩ : BufTy).Contents (Elt Ideal)) (n : Fin 50000) (d : Fin 128) :
    Read.val_main_v93 (F := Ideal) x0 x8 x9 x16 x17 (ix2 n d)
      = Cert.GraphStack.conv (Read.val_main_v85 (F := Ideal) x0 x16 x17) (Read.val_main_v87 (F := Ideal) x17) x8
          (Read.val_main_v91 (F := Ideal) x9) n d := by
  have el : ∀ k : Fin 128, Read.lidx_main_v90 (ix2 n d) k = ix2 n k := fun k =>
    funext fun a => by match a with | ⟨0, _⟩ => rfl | ⟨1, _⟩ => rfl
  have er : ∀ k : Fin 128, Read.ridx_main_v90 (ix2 n d) k = ix2 k d := fun k =>
    funext fun a => by match a with | ⟨0, _⟩ => rfl | ⟨1, _⟩ => rfl
  have ec : ∀ k : Fin 128, Read.idx_main_v88 (ix2 n k) = ix2 n (0 : Fin 1) := fun k =>
    funext fun a => by match a with | ⟨0, _⟩ => rfl | ⟨1, _⟩ => rfl
  have eb : Read.idx_main_v92 (ix2 n d) = ix2 (0 : Fin 1) d :=
    funext fun a => by match a with | ⟨0, _⟩ => rfl | ⟨1, _⟩ => rfl
  -- one term of the contraction: the scaled message times the matrix entry
  have hs : ∀ k : Fin 128,
      Read.val_main_v89 (F := Ideal) x0 x16 x17 (Read.lidx_main_v90 (ix2 n d) k) * x8 (Read.ridx_main_v90 (ix2 n d) k)
        = Read.val_main_v85 (F := Ideal) x0 x16 x17 (ix2 n k) * Read.val_main_v87 (F := Ideal) x17 (ix2 n (0 : Fin 1))
            * x8 (ix2 k d) := fun k => by
    rw [el, er, Read.val_main_v89_apply, Read.val_main_v88_apply, ec, Ideal.mulf_def]
  rw [Read.val_main_v93_apply, Read.val_main_v90_apply, Read.val_main_v92_apply, eb]
  unfold Cert.GraphStack.conv
  rw [Ideal.addf_def, Finset.sum_congr rfl fun k _ => hs k]

/-- The update of the relation whose aggregated messages are `v116`: at node `n` and feature `d` it is the
    row of aggregated messages scaled by the node's weight, times the weight matrix, plus the bias. The matrix
    product contracts over the 128 features; the two broadcasts read the weight column at `(n, 0)` and the
    bias row at `(0, d)`. -/
theorem val_main_v124_conv (x1 : (⟨S50000x128, .f32⟩ : BufTy).Contents (Elt Ideal))
    (x10 : (⟨S128x128, .f32⟩ : BufTy).Contents (Elt Ideal)) (x11 : (⟨S128, .f32⟩ : BufTy).Contents (Elt Ideal))
    (x18 x19 : (⟨S800000, .i32⟩ : BufTy).Contents (Elt Ideal)) (n : Fin 50000) (d : Fin 128) :
    Read.val_main_v124 (F := Ideal) x1 x10 x11 x18 x19 (ix2 n d)
      = Cert.GraphStack.conv (Read.val_main_v116 (F := Ideal) x1 x18 x19) (Read.val_main_v118 (F := Ideal) x19) x10
          (Read.val_main_v122 (F := Ideal) x11) n d := by
  have el : ∀ k : Fin 128, Read.lidx_main_v121 (ix2 n d) k = ix2 n k := fun k =>
    funext fun a => by match a with | ⟨0, _⟩ => rfl | ⟨1, _⟩ => rfl
  have er : ∀ k : Fin 128, Read.ridx_main_v121 (ix2 n d) k = ix2 k d := fun k =>
    funext fun a => by match a with | ⟨0, _⟩ => rfl | ⟨1, _⟩ => rfl
  have ec : ∀ k : Fin 128, Read.idx_main_v119 (ix2 n k) = ix2 n (0 : Fin 1) := fun k =>
    funext fun a => by match a with | ⟨0, _⟩ => rfl | ⟨1, _⟩ => rfl
  have eb : Read.idx_main_v123 (ix2 n d) = ix2 (0 : Fin 1) d :=
    funext fun a => by match a with | ⟨0, _⟩ => rfl | ⟨1, _⟩ => rfl
  -- one term of the contraction: the scaled message times the matrix entry
  have hs : ∀ k : Fin 128,
      Read.val_main_v120 (F := Ideal) x1 x18 x19 (Read.lidx_main_v121 (ix2 n d) k) * x10 (Read.ridx_main_v121 (ix2 n d) k)
        = Read.val_main_v116 (F := Ideal) x1 x18 x19 (ix2 n k) * Read.val_main_v118 (F := Ideal) x19 (ix2 n (0 : Fin 1))
            * x10 (ix2 k d) := fun k => by
    rw [el, er, Read.val_main_v120_apply, Read.val_main_v119_apply, ec, Ideal.mulf_def]
  rw [Read.val_main_v124_apply, Read.val_main_v121_apply, Read.val_main_v123_apply, eb]
  unfold Cert.GraphStack.conv
  rw [Ideal.addf_def, Finset.sum_congr rfl fun k _ => hs k]

/-- Four slabs of extent one stacked along the leading axis: slab 0 of the stack is the first piece. -/
theorem concat4_0 (y0 y1 y2 y3 : (⟨3, ![1, 50000, 128]⟩ : Shape).Idx → EReal)
    (h : Shape.Concatenates (([⟨⟨3, ![1, 50000, 128]⟩, y0⟩, ⟨⟨3, ![1, 50000, 128]⟩, y1⟩, ⟨⟨3, ![1, 50000, 128]⟩, y2⟩,
      ⟨⟨3, ![1, 50000, 128]⟩, y3⟩] : List ((s : Shape) × (s.Idx → EReal))).map (·.1)) ⟨3, ![4, 50000, 128]⟩ 0)
    (n : Fin 50000) (d : Fin 128) :
    concatenate (⟨3, ![4, 50000, 128]⟩ : Shape) 0 [⟨⟨3, ![1, 50000, 128]⟩, y0⟩, ⟨⟨3, ![1, 50000, 128]⟩, y1⟩,
        ⟨⟨3, ![1, 50000, 128]⟩, y2⟩, ⟨⟨3, ![1, 50000, 128]⟩, y3⟩] h (ix3 (0 : Fin 4) n d)
      = y0 (ix3 (0 : Fin 1) n d) :=
  concatenate_apply_piece 0 _ h _ 0 (by show (0 : Nat) < 4; decide) ⟨3, ![1, 50000, 128]⟩ y0 rfl rfl 0 rfl
    (ix3 (0 : Fin 1) n d)
    (fun b hb => by
      match b with
      | ⟨0, _⟩ => exact absurd rfl hb
      | ⟨1, _⟩ => rfl
      | ⟨2, _⟩ => rfl) rfl

/-- Four slabs of extent one stacked along the leading axis: slab 1 of the stack is the second piece. -/
theorem concat4_1 (y0 y1 y2 y3 : (⟨3, ![1, 50000, 128]⟩ : Shape).Idx → EReal)
    (h : Shape.Concatenates (([⟨⟨3, ![1, 50000, 128]⟩, y0⟩, ⟨⟨3, ![1, 50000, 128]⟩, y1⟩, ⟨⟨3, ![1, 50000, 128]⟩, y2⟩,
      ⟨⟨3, ![1, 50000, 128]⟩, y3⟩] : List ((s : Shape) × (s.Idx → EReal))).map (·.1)) ⟨3, ![4, 50000, 128]⟩ 0)
    (n : Fin 50000) (d : Fin 128) :
    concatenate (⟨3, ![4, 50000, 128]⟩ : Shape) 0 [⟨⟨3, ![1, 50000, 128]⟩, y0⟩, ⟨⟨3, ![1, 50000, 128]⟩, y1⟩,
        ⟨⟨3, ![1, 50000, 128]⟩, y2⟩, ⟨⟨3, ![1, 50000, 128]⟩, y3⟩] h (ix3 (1 : Fin 4) n d)
      = y1 (ix3 (0 : Fin 1) n d) :=
  concatenate_apply_piece 0 _ h _ 1 (by show (1 : Nat) < 4; decide) ⟨3, ![1, 50000, 128]⟩ y1 rfl rfl 1 rfl
    (ix3 (0 : Fin 1) n d)
    (fun b hb => by
      match b with
      | ⟨0, _⟩ => exact absurd rfl hb
      | ⟨1, _⟩ => rfl
      | ⟨2, _⟩ => rfl) rfl

/-- Four slabs of extent one stacked along the leading axis: slab 2 of the stack is the third piece. -/
theorem concat4_2 (y0 y1 y2 y3 : (⟨3, ![1, 50000, 128]⟩ : Shape).Idx → EReal)
    (h : Shape.Concatenates (([⟨⟨3, ![1, 50000, 128]⟩, y0⟩, ⟨⟨3, ![1, 50000, 128]⟩, y1⟩, ⟨⟨3, ![1, 50000, 128]⟩, y2⟩,
      ⟨⟨3, ![1, 50000, 128]⟩, y3⟩] : List ((s : Shape) × (s.Idx → EReal))).map (·.1)) ⟨3, ![4, 50000, 128]⟩ 0)
    (n : Fin 50000) (d : Fin 128) :
    concatenate (⟨3, ![4, 50000, 128]⟩ : Shape) 0 [⟨⟨3, ![1, 50000, 128]⟩, y0⟩, ⟨⟨3, ![1, 50000, 128]⟩, y1⟩,
        ⟨⟨3, ![1, 50000, 128]⟩, y2⟩, ⟨⟨3, ![1, 50000, 128]⟩, y3⟩] h (ix3 (2 : Fin 4) n d)
      = y2 (ix3 (0 : Fin 1) n d) :=
  concatenate_apply_piece 0 _ h _ 2 (by show (2 : Nat) < 4; decide) ⟨3, ![1, 50000, 128]⟩ y2 rfl rfl 2 rfl
    (ix3 (0 : Fin 1) n d)
    (fun b hb => by
      match b with
      | ⟨0, _⟩ => exact absurd rfl hb
      | ⟨1, _⟩ => rfl
      | ⟨2, _⟩ => rfl) rfl

/-- Four slabs of extent one stacked along the leading axis: slab 3 of the stack is the fourth piece. -/
theorem concat4_3 (y0 y1 y2 y3 : (⟨3, ![1, 50000, 128]⟩ : Shape).Idx → EReal)
    (h : Shape.Concatenates (([⟨⟨3, ![1, 50000, 128]⟩, y0⟩, ⟨⟨3, ![1, 50000, 128]⟩, y1⟩, ⟨⟨3, ![1, 50000, 128]⟩, y2⟩,
      ⟨⟨3, ![1, 50000, 128]⟩, y3⟩] : List ((s : Shape) × (s.Idx → EReal))).map (·.1)) ⟨3, ![4, 50000, 128]⟩ 0)
    (n : Fin 50000) (d : Fin 128) :
    concatenate (⟨3, ![4, 50000, 128]⟩ : Shape) 0 [⟨⟨3, ![1, 50000, 128]⟩, y0⟩, ⟨⟨3, ![1, 50000, 128]⟩, y1⟩,
        ⟨⟨3, ![1, 50000, 128]⟩, y2⟩, ⟨⟨3, ![1, 50000, 128]⟩, y3⟩] h (ix3 (3 : Fin 4) n d)
      = y3 (ix3 (0 : Fin 1) n d) :=
  concatenate_apply_piece 0 _ h _ 3 (by show (3 : Nat) < 4; decide) ⟨3, ![1, 50000, 128]⟩ y3 rfl rfl 3 rfl
    (ix3 (0 : Fin 1) n d)
    (fun b hb => by
      match b with
      | ⟨0, _⟩ => exact absurd rfl hb
      | ⟨1, _⟩ => rfl
      | ⟨2, _⟩ => rfl) rfl

/-- Slab 0 of the result is the sum of the first two relations' updates: the stack reads its piece 0, which is the
    node-by-feature array placed on a leading axis of extent one. -/
theorem val_main_v129_slab0 (x0 x1 x2 x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 x14 x15 x16 x17 x18 x19 : (⟨S800000, .i32⟩ : BufTy).Contents (Elt Ideal))
    (n : Fin 50000) (d : Fin 128) :
    Read.val_main_v129 (F := Ideal) x0 x1 x2 x3 x4 x5 x6 x7 x8 x9 x10 x11 x12 x13 x14 x15 x16 x17 x18 x19 (ix3 (0 : Fin 4) n d)
      = Cert.GraphStack.conv (Read.val_main_v22 (F := Ideal) x2 x12 x13) (Read.val_main_v24 (F := Ideal) x13) x4 (Read.val_main_v28 (F := Ideal) x5) n d
        + Cert.GraphStack.conv (Read.val_main_v53 (F := Ideal) x3 x14 x15) (Read.val_main_v55 (F := Ideal) x15) x6 (Read.val_main_v59 (F := Ideal) x7) n d := by
  have e : Read.idx_main_v125 (ix3 (0 : Fin 1) n d) = ix2 n d :=
    funext fun a => by match a with | ⟨0, _⟩ => rfl | ⟨1, _⟩ => rfl
  unfold Read.val_main_v129
  rw [concat4_0, Read.val_main_v125_apply, e, Read.val_main_v62_apply, val_main_v30_conv, val_main_v61_conv, Ideal.addf_def]

/-- Slab 1 of the result is the sum of the first two relations' updates: the stack reads its piece 1, which is the
    node-by-feature array placed on a leading axis of extent one. -/
theorem val_main_v129_slab1 (x0 x1 x2 x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 x14 x15 x16 x17 x18 x19 : (⟨S800000, .i32⟩ : BufTy).Contents (Elt Ideal))
    (n : Fin 50000) (d : Fin 128) :
    Read.val_main_v129 (F := Ideal) x0 x1 x2 x3 x4 x5 x6 x7 x8 x9 x10 x11 x12 x13 x14 x15 x16 x17 x18 x19 (ix3 (1 : Fin 4) n d)
      = Cert.GraphStack.conv (Read.val_main_v22 (F := Ideal) x2 x12 x13) (Read.val_main_v24 (F := Ideal) x13) x4 (Read.val_main_v28 (F := Ideal) x5) n d
        + Cert.GraphStack.conv (Read.val_main_v53 (F := Ideal) x3 x14 x15) (Read.val_main_v55 (F := Ideal) x15) x6 (Read.val_main_v59 (F := Ideal) x7) n d := by
  have e : Read.idx_main_v126 (ix3 (0 : Fin 1) n d) = ix2 n d :=
    funext fun a => by match a with | ⟨0, _⟩ => rfl | ⟨1, _⟩ => rfl
  unfold Read.val_main_v129
  rw [concat4_1, Read.val_main_v126_apply, e, Read.val_main_v62_apply, val_main_v30_conv, val_main_v61_conv, Ideal.addf_def]

/-- Slab 2 of the result is the third relation's update: the stack reads its piece 2, which is the
    node-by-feature array placed on a leading axis of extent one. -/
theorem val_main_v129_slab2 (x0 x1 x2 x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 x14 x15 x16 x17 x18 x19 : (⟨S800000, .i32⟩ : BufTy).Contents (Elt Ideal))
    (n : Fin 50000) (d : Fin 128) :
    Read.val_main_v129 (F := Ideal) x0 x1 x2 x3 x4 x5 x6 x7 x8 x9 x10 x11 x12 x13 x14 x15 x16 x17 x18 x19 (ix3 (2 : Fin 4) n d)
      = Cert.GraphStack.conv (Read.val_main_v85 (F := Ideal) x0 x16 x17) (Read.val_main_v87 (F := Ideal) x17) x8 (Read.val_main_v91 (F := Ideal) x9) n d := by
  have e : Read.idx_main_v127 (ix3 (0 : Fin 1) n d) = ix2 n d :=
    funext fun a => by match a with | ⟨0, _⟩ => rfl | ⟨1, _⟩ => rfl
  unfold Read.val_main_v129
  rw [concat4_2, Read.val_main_v127_apply, e, val_main_v93_conv]

/-- Slab 3 of the result is the fourth relation's update: the stack reads its piece 3, which is the
    node-by-feature array placed on a leading axis of extent one. -/
theorem val_main_v129_slab3 (x0 x1 x2 x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 x14 x15 x16 x17 x18 x19 : (⟨S800000, .i32⟩ : BufTy).Contents (Elt Ideal))
    (n : Fin 50000) (d : Fin 128) :
    Read.val_main_v129 (F := Ideal) x0 x1 x2 x3 x4 x5 x6 x7 x8 x9 x10 x11 x12 x13 x14 x15 x16 x17 x18 x19 (ix3 (3 : Fin 4) n d)
      = Cert.GraphStack.conv (Read.val_main_v116 (F := Ideal) x1 x18 x19) (Read.val_main_v118 (F := Ideal) x19) x10 (Read.val_main_v122 (F := Ideal) x11) n d := by
  have e : Read.idx_main_v128 (ix3 (0 : Fin 1) n d) = ix2 n d :=
    funext fun a => by match a with | ⟨0, _⟩ => rfl | ⟨1, _⟩ => rfl
  unfold Read.val_main_v129
  rw [concat4_3, Read.val_main_v128_apply, e, val_main_v124_conv]

/-- The reference's result is the stacked specification of its own aggregated messages, weight columns,
    weight matrices and bias rows: slabs 0 and 1 carry the sum of the first two relations' updates, slab 2 the
    third relation's, slab 3 the fourth's. -/
theorem val_main_v129_eq_stack (x0 x1 x2 x3 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 x13 x14 x15 x16 x17 x18 x19 : (⟨S800000, .i32⟩ : BufTy).Contents (Elt Ideal)) :
    Read.val_main_v129 (F := Ideal) x0 x1 x2 x3 x4 x5 x6 x7 x8 x9 x10 x11 x12 x13 x14 x15 x16 x17 x18 x19
      = Cert.GraphStack.stack
          (Read.val_main_v22 (F := Ideal) x2 x12 x13) (Read.val_main_v53 (F := Ideal) x3 x14 x15)
          (Read.val_main_v85 (F := Ideal) x0 x16 x17) (Read.val_main_v116 (F := Ideal) x1 x18 x19)
          (Read.val_main_v24 (F := Ideal) x13) (Read.val_main_v55 (F := Ideal) x15)
          (Read.val_main_v87 (F := Ideal) x17) (Read.val_main_v118 (F := Ideal) x19)
          x4 x6 x8 x10
          (Read.val_main_v28 (F := Ideal) x5) (Read.val_main_v59 (F := Ideal) x7)
          (Read.val_main_v91 (F := Ideal) x9) (Read.val_main_v122 (F := Ideal) x11) := by
  funext i
  obtain ⟨s, n, d, rfl⟩ : ∃ (s : Fin 4) (n : Fin 50000) (d : Fin 128), i = ix3 s n d :=
    ⟨i 0, i 1, i 2, eq_ix3 i⟩
  rw [Cert.GraphStack.stack_ix3]
  match s with
  | ⟨0, _⟩ =>
    rw [if_pos (show (0 : Nat) < 2 by decide)]
    exact val_main_v129_slab0 x0 x1 x2 x3 x4 x5 x6 x7 x8 x9 x10 x11 x12 x13 x14 x15 x16 x17 x18 x19 n d
  | ⟨1, _⟩ =>
    rw [if_pos (show (1 : Nat) < 2 by decide)]
    exact val_main_v129_slab1 x0 x1 x2 x3 x4 x5 x6 x7 x8 x9 x10 x11 x12 x13 x14 x15 x16 x17 x18 x19 n d
  | ⟨2, _⟩ =>
    rw [if_neg (show ¬ (2 : Nat) < 2 by decide), if_pos (show (2 : Nat) = 2 from rfl)]
    exact val_main_v129_slab2 x0 x1 x2 x3 x4 x5 x6 x7 x8 x9 x10 x11 x12 x13 x14 x15 x16 x17 x18 x19 n d
  | ⟨3, _⟩ =>
    rw [if_neg (show ¬ (3 : Nat) < 2 by decide), if_neg (show ¬ (3 : Nat) = 2 by decide)]
    exact val_main_v129_slab3 x0 x1 x2 x3 x4 x5 x6 x7 x8 x9 x10 x11 x12 x13 x14 x15 x16 x17 x18 x19 n d

end Cert.ReferenceIdeal.RefValue

end
-- ==== Proof.lean ====
/-
  Four graph-convolution relations over 50000 nodes per type and 800000 edges per relation, stacked.

  For one relation let A be the aggregated messages (for each destination node, the sum over its
  incoming edges of the source node's feature row scaled by the source's degree weight), C the
  column of destination-degree weights, W the weight matrix and R the bias as a row.  Both programs
  compute, at node n and feature d,
        (∑ k, (A[n,k] · C[n,0]) · W[k,d]) + R[0,d],
  and stack four node-by-feature slabs: the sum of the first two relations' updates twice, then
  the third relation's, then the fourth's.

  The reference does everything with array operations.  The kernel computes A, C and R with the
  same array operations (narrowing the scaled features to a shorter float format around the
  gather, which on the extended reals changes nothing), and then one gridded region does the
  rest, 2000 nodes per grid point: it scales its 2000 rows of A by their entries of C, multiplies
  by W into a zero accumulator, adds R, adds the first two relations, and stores four slabs.

  So the two results are the same function of the same intermediate arrays, term by term; no
  algebraic law is needed beyond reading each operation at an index, and the precondition is
  never opened.  The pieces:
    * Spec        the stacked formula, on whole arrays and on one block of 2000 nodes;
    * Payload     the region body's arithmetic read entry by entry;
    * BlockStack  the body's four slab stores as the block formula of its loaded blocks;
    * Final       block t of the stacked formula is what point t writes back; the 25 blocks cover
                  the result; hence the result array is the stacked formula of the staged arrays;
    * HostSide    the arrays the region stages are the reference's own intermediate arrays;
    * RefStack    the reference's result is the stacked formula of its intermediate arrays.
  The idealized kernel is the kernel's own text read on the extended reals (no rewrite was made),
  and the three programs terminate without fault leaving their arguments unchanged.
-/
import proofs.«159375_j48275432407743_2_alg».proof.Defs
import proofs.«159375_j48275432407743_2_alg».proof.Proof.Gen.Kernel
import proofs.«159375_j48275432407743_2_alg».proof.Proof.Gen.Kernel.Skeleton
import proofs.«159375_j48275432407743_2_alg».proof.Proof.Gen.Kernel.Launch
import proofs.«159375_j48275432407743_2_alg».proof.Proof.Gen.Kernel.Points
import proofs.«159375_j48275432407743_2_alg».proof.Proof.Gen.Kernel.Frame
import proofs.«159375_j48275432407743_2_alg».proof.Proof.Gen.KernelIdeal
import proofs.«159375_j48275432407743_2_alg».proof.Proof.Gen.KernelIdeal.Skeleton
import proofs.«159375_j48275432407743_2_alg».proof.Proof.Gen.KernelIdeal.Launch
import proofs.«159375_j48275432407743_2_alg».proof.Proof.Gen.KernelIdeal.Points
import proofs.«159375_j48275432407743_2_alg».proof.Proof.Gen.KernelIdeal.Frame
import proofs.«159375_j48275432407743_2_alg».proof.Proof.Gen.KernelIdeal.Value
import proofs.«159375_j48275432407743_2_alg».proof.Proof.Gen.ReferenceIdeal
import proofs.«159375_j48275432407743_2_alg».proof.Proof.Gen.ReferenceIdeal.Run
import proofs.«159375_j48275432407743_2_alg».proof.Proof.Gen.ReferenceIdeal.Read
import proofs.«159375_j48275432407743_2_alg».proof.Proof.Gen.Pre_finite_inputs
import proofs.«159375_j48275432407743_2_alg».proof.Proof.Final
import proofs.«159375_j48275432407743_2_alg».proof.Proof.HostSide
import proofs.«159375_j48275432407743_2_alg».proof.Proof.RefStack
import Idealize.ShloMosaic.Adequacy
import Idealize.ShloMosaic.Init

noncomputable section

namespace Cert.Proof

open Idealize.ShloMosaic Idealize.ShloMosaic.TcCoe Idealize.SL.Sem

/-- From memories that agree on the arguments, the reference's result term is the kernel's: both
    are the stacked formula, the reference's of its own intermediate arrays, the kernel's of the
    arrays its region stages, and those are the same arrays. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Value.res_main_v129 m' c = Cert.KernelIdeal.BlockValue.result m c := by
  obtain ⟨h0, h1, h2, h3, h4, h5, h6, h7, h8, h9, h10, h11, h12, h13, h14, h15, h16, h17, h18, h19⟩ := hagree
  rw [Cert.ReferenceIdeal.Read.val_main_v129_eq, h0, h1, h2, h3, h4, h5, h6, h7, h8, h9, h10, h11, h12, h13, h14, h15, h16, h17, h18, h19, Cert.ReferenceIdeal.RefValue.val_main_v129_eq_stack,
    ← Cert.KernelIdeal.HostValue.V_main_v24 m c, ← Cert.KernelIdeal.HostValue.V_main_v51 m c, ← Cert.KernelIdeal.HostValue.V_main_v78 m c, ← Cert.KernelIdeal.HostValue.V_main_v105 m c,
    ← Cert.KernelIdeal.HostValue.V_main_v26 m c, ← Cert.KernelIdeal.HostValue.V_main_v53 m c, ← Cert.KernelIdeal.HostValue.V_main_v80 m c, ← Cert.KernelIdeal.HostValue.V_main_v107 m c,
    ← Cert.KernelIdeal.HostValue.V_main_v108 m c, ← Cert.KernelIdeal.HostValue.V_main_v109 m c, ← Cert.KernelIdeal.HostValue.V_main_v110 m c, ← Cert.KernelIdeal.HostValue.V_main_v111 m c,
    ← Cert.KernelIdeal.Gen.V_main_arg4 m c, ← Cert.KernelIdeal.Gen.V_main_arg6 m c, ← Cert.KernelIdeal.Gen.V_main_arg8 m c, ← Cert.KernelIdeal.Gen.V_main_arg10 m c]

/-- The word-level kernel terminates, faults nowhere and leaves its arguments unchanged. -/
theorem frame_kernel [hKernel : Cert.Kernel.Facts] [hPre_finite_inputs : Cert.Pre_finite_inputs.Facts] :
    Cert.frame_Kernel := fun m ρ _ => Cert.Kernel.Gen.frame m ρ

/-- So does the kernel read on the extended reals. -/
theorem frame_kernelIdeal [hKernelIdeal : Cert.KernelIdeal.Facts] [hPre_finite_inputs : Cert.Pre_finite_inputs.Facts] :
    Cert.frame_KernelIdeal := fun m ρ _ => Cert.KernelIdeal.Gen.frame m ρ

/-- So does the reference: its run, with the result forgotten. -/
theorem frame_referenceIdeal [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

/-- The two idealized programs end with the same result: the stacked formula of the arrays the
    kernel's region stages. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.BlockValue.result m c, ?_, ?_⟩
  · exact (θ_run Cert.KernelIdeal.defs _ _).mono
      (fun r h c => ⟨(h c).1.trans (Cert.KernelIdeal.BlockValue.final m c), (h c).2⟩) (Cert.KernelIdeal.Value.run_blocks m ρ)
  · exact (θ_run Cert.ReferenceIdeal.defs _ _).mono
      (fun _ h c => ⟨(h c).1.trans (results_agree m m' c (hagree c)), (h c).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
